-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg6 : FVec F S128 .f32) (main_arg7 : FVec F S128x16 .f32) (main_arg8 : FVec F S16 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x16 .f32 := Host.absf main_arg7
  let main_cst_8 : FVec F S_ .f32 := constant S_ .f32 0x7F800000#32
  let main_v25 : FVec F S128x16 .f32 := broadcastInDim S128x16 ![] bcast_S_S128x16 main_cst_8
  let main_v26 : IVec S128x16 1 := cmpf .olt main_v24 main_v25
  let main_c_9 : IVec S_ 1 := constantI S_ 1 1#1
  let main_v27 : IVec S_ 1 := (fun x v => Host.reduce IntOp.andi x v reducesTo_S128x16_S_d0_1 h_S_) main_v26 main_c_9
  let main_v28 : IVec S_ 1 := andi main_v23 main_v27
  let main_v29 : FVec F S16 .f32 := Host.absf main_arg8
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x16 .f32) (main_arg8 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S100000x1 : Shape := ⟨2, ![100000, 1]⟩
abbrev S128x1 : Shape := ⟨2, ![128, 1]⟩
abbrev S1x16 : Shape := ⟨2, ![1, 16]⟩

abbrev nBuf : Space → Nat
  | .hbm => 105
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x16, .f32⟩
  | .hbm, ⟨8, _⟩ => ⟨S16, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x1, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .i32⟩
  | .hbm, ⟨70, _⟩ => ⟨S1700000, .i32⟩
  | .hbm, ⟨71, _⟩ => ⟨S1700000, .i1⟩
  | .hbm, ⟨72, _⟩ => ⟨S_, .i32⟩
  | .hbm, ⟨73, _⟩ => ⟨S1700000, .i32⟩
  | .hbm, ⟨74, _⟩ => ⟨S1700000, .i32⟩
  | .hbm, ⟨75, _⟩ => ⟨S1700000, .i32⟩
  | .hbm, ⟨76, _⟩ => ⟨S1700000x1, .i32⟩
  | .hbm, ⟨77, _⟩ => ⟨S1700000x128, .f32⟩
  | .hbm, ⟨78, _⟩ => ⟨S1700000x1, .f32⟩
  | .hbm, ⟨79, _⟩ => ⟨S1700000x128, .f32⟩
  | .hbm, ⟨80, _⟩ => ⟨S1700000x128, .f32⟩
  | .hbm, ⟨81, _⟩ => ⟨S_, .f32⟩
  | .hbm, ⟨82, _⟩ => ⟨S100000x128, .f32⟩
  | .hbm, ⟨83, _⟩ => ⟨S1700000x1, .i32⟩
  | .hbm, ⟨84, _⟩ => ⟨S100000x128, .f32⟩
  | .hbm, ⟨85, _⟩ => ⟨S1x128, .f32⟩
  | .hbm, ⟨86, _⟩ => ⟨S100000x128, .f32⟩
  | .hbm, ⟨87, _⟩ => ⟨S_, .f32⟩
  | .hbm, ⟨88, _⟩ => ⟨S128x128, .f32⟩
  | .hbm, ⟨89, _⟩ => ⟨S100000x1, .i32⟩
  | .hbm, ⟨90, _⟩ => ⟨S128x128, .f32⟩
  | .hbm, ⟨91, _⟩ => ⟨S_, .f32⟩
  | .hbm, ⟨92, _⟩ => ⟨S100000, .f32⟩
  | .hbm, ⟨93, _⟩ => ⟨S_, .f32⟩
  | .hbm, ⟨94, _⟩ => ⟨S128, .f32⟩
  | .hbm, ⟨95, _⟩ => ⟨S100000x1, .i32⟩
  | .hbm, ⟨96, _⟩ => ⟨S128, .f32⟩
  | .hbm, ⟨97, _⟩ => ⟨S_, .f32⟩
  | .hbm, ⟨98, _⟩ => ⟨S128, .f32⟩
  | .hbm, ⟨99, _⟩ => ⟨S128, .f32⟩
  | .hbm, ⟨100, _⟩ => ⟨S128x1, .f32⟩
  | .hbm, ⟨101, _⟩ => ⟨S128x128, .f32⟩
  | .hbm, ⟨102, _⟩ => ⟨S128x128, .f32⟩
  | .hbm, ⟨103, _⟩ => ⟨S1x16, .f32⟩
  | .hbm, ⟨104, _⟩ => ⟨S128x16, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S128x128, .f32⟩
  | .local _ .vmem, ⟨21, _⟩ => ⟨S128x16, .f32⟩
  | .local _ .vmem, ⟨22, _⟩ => ⟨S1x16, .f32⟩
  | .local _ .vmem, ⟨23, _⟩ => ⟨S128x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_9 : Ref sig .tc := ⟨.hbm, 69, rfl⟩
abbrev main_v47 : Ref sig .tc := ⟨.hbm, 70, rfl⟩
abbrev main_v48 : Ref sig .tc := ⟨.hbm, 71, rfl⟩
abbrev main_c_10 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_11 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_12 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_13 : Ref sig .tc := ⟨.hbm, 91, rfl⟩
abbrev main_v65 : Ref sig .tc := ⟨.hbm, 92, rfl⟩
abbrev main_cst_14 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_15 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg1_0 : Ref sig .tc := ⟨.vmem, 21, rfl⟩
abbrev cc4_stg2_0 : Ref sig .tc := ⟨.vmem, 22, rfl⟩
abbrev cc4_stg3_0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem1_0 : DmaSem sig := 21
abbrev cc4_sem2_0 : DmaSem sig := 22
abbrev cc4_sem3_0 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S128x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S128x16 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x16 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x16 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S128x128 : S_.BroadcastsInDim S128x128 (![] : Fin 0 → Fin S128x128.rank)
  bcast_S100000_S100000x1_0 : S100000.BroadcastsInDim S100000x1 (![0] : Fin 1 → Fin S100000x1.rank)
  bcast_S_S128 : S_.BroadcastsInDim S128 (![] : Fin 0 → Fin S128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  shapeCasts_S16_S1x16 : S16.ShapeCasts S1x16
  shapeCasts_S128x128_S128x128 : S128x128.ShapeCasts S128x128
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S128x16 : S1x16.Broadcasts S128x16
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S128x128_S100000x1_S100000x128_1_0_0_1_wf : ScatterDims.WF S128x128 S100000x1 S100000x128 [1] [0] [0] 1
  scatter_S128_S100000x1_S100000_n_0_0_1_wf : ScatterDims.WF S128 S100000x1 S100000 [] [0] [0] 1
  dot_S128x128_S128x16_S128x16_1_0_0_1_n_n_wf : DotDims.WF S128x128 S128x16 S128x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S128x128.size a ≤ S128x128.size a
  hwx4_0 : ∀ i : grid4.Coords, EltTy.bits .f32 = 32 ∨ (Rect.block (s := S128x128) S128x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x16.size a ≤ S128x16.size a
  hwx4_1 : ∀ i : grid4.Coords, EltTy.bits .f32 = 32 ∨ (Rect.block (s := S128x16) S128x16.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x16.size a ≤ S1x16.size a
  hwx4_2 : ∀ i : grid4.Coords, EltTy.bits .f32 = 32 ∨ (Rect.block (s := S1x16) S1x16.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x16.size a ≤ S128x16.size a
  hwx4_3 : ∀ i : grid4.Coords, EltTy.bits .f32 = 32 ∨ (Rect.block (s := S128x16) S128x16.size (cc4_transform_3 i) (hinb4_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S128x128_S100000x1_S100000x128_1_0_0_1 : ScatterDims S128x128 S100000x1 S100000x128 where
  updateWindowDims := [1]
  insertedWindowDims := [0]
  scatterDimsToOperandDims := [0]
  indexVectorDim := 1
  wf := scatter_S128x128_S100000x1_S100000x128_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x128_S128x16_S128x16_1_0_0_1_n_n : DotDims S128x128 S128x16 S128x16 where
  lhsContracting := [1]
  rhsContracting := [0]
  lhsNonContracting := [0]
  rhsNonContracting := [1]
  lhsBatch := []
  rhsBatch := []
  wf := dot_S128x128_S128x16_S128x16_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v73) S128x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x16.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v74) S1x16.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v75) S128x16.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x1 : Shape := ⟨2, ![100000, 1]⟩
abbrev S128x1 : Shape := ⟨2, ![128, 1]⟩
abbrev S1x16 : Shape := ⟨2, ![1, 16]⟩

abbrev nBuf : Space → Nat
  | .hbm => 148
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x16, .f32⟩
  | 8 => ⟨S16, .f32⟩
  | 9 => ⟨S100000, .i32⟩
  | 10 => ⟨S1x1600000, .i32⟩
  | 11 => ⟨S1600000, .i32⟩
  | 12 => ⟨S1700000, .i32⟩
  | 13 => ⟨S1x1600000, .i32⟩
  | 14 => ⟨S1600000, .i32⟩
  | 15 => ⟨S1700000, .i32⟩
  | 16 => ⟨S100000x128, .f32⟩
  | 17 => ⟨S_, .f32⟩
  | 18 => ⟨S1700000, .f32⟩
  | 19 => ⟨S_, .f32⟩
  | 20 => ⟨S100000, .f32⟩
  | 21 => ⟨S1700000x1, .i32⟩
  | 22 => ⟨S100000, .f32⟩
  | 23 => ⟨S_, .f32⟩
  | 24 => ⟨S100000, .f32⟩
  | 25 => ⟨S100000, .i1⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000x128, .f32⟩
  | 59 => ⟨S1700000x1, .f32⟩
  | 60 => ⟨S1700000x128, .f32⟩
  | 61 => ⟨S1700000x128, .f32⟩
  | 62 => ⟨S_, .f32⟩
  | 63 => ⟨S100000x128, .f32⟩
  | 64 => ⟨S1700000x1, .i32⟩
  | 65 => ⟨S100000x128, .f32⟩
  | 66 => ⟨S1x128, .f32⟩
  | 67 => ⟨S100000x128, .f32⟩
  | 68 => ⟨S100000x128, .f32⟩
  | 69 => ⟨S_, .f32⟩
  | 70 => ⟨S100000x128, .f32⟩
  | 71 => ⟨S100000x128, .f32⟩
  | 72 => ⟨S100000x128, .f32⟩
  | 73 => ⟨S_, .f32⟩
  | 74 => ⟨S1700000, .f32⟩
  | 75 => ⟨S_, .f32⟩
  | 76 => ⟨S100000, .f32⟩
  | 77 => ⟨S1700000x1, .i32⟩
  | 78 => ⟨S100000, .f32⟩
  | 79 => ⟨S_, .f32⟩
  | 80 => ⟨S100000, .f32⟩
  | 81 => ⟨S100000, .i1⟩
  | 82 => ⟨S100000, .f32⟩
  | 83 => ⟨S_, .f32⟩
  | 84 => ⟨S_, .f32⟩
  | 85 => ⟨S100000, .f32⟩
  | 86 => ⟨S100000, .f32⟩
  | 87 => ⟨S_, .i32⟩
  | 88 => ⟨S1700000, .i32⟩
  | 89 => ⟨S1700000, .i1⟩
  | 90 => ⟨S_, .i32⟩
  | 91 => ⟨S1700000, .i32⟩
  | 92 => ⟨S1700000, .i32⟩
  | 93 => ⟨S1700000, .i32⟩
  | 94 => ⟨S1700000x1, .i32⟩
  | 95 => ⟨S1700000, .f32⟩
  | 96 => ⟨S_, .i32⟩
  | 97 => ⟨S1700000, .i32⟩
  | 98 => ⟨S1700000, .i1⟩
  | 99 => ⟨S_, .i32⟩
  | 100 => ⟨S1700000, .i32⟩
  | 101 => ⟨S1700000, .i32⟩
  | 102 => ⟨S1700000, .i32⟩
  | 103 => ⟨S1700000x1, .i32⟩
  | 104 => ⟨S1700000, .f32⟩
  | 105 => ⟨S1700000, .f32⟩
  | 106 => ⟨S_, .i32⟩
  | 107 => ⟨S1700000, .i32⟩
  | 108 => ⟨S1700000, .i1⟩
  | 109 => ⟨S_, .i32⟩
  | 110 => ⟨S1700000, .i32⟩
  | 111 => ⟨S1700000, .i32⟩
  | 112 => ⟨S1700000, .i32⟩
  | 113 => ⟨S1700000x1, .i32⟩
  | 114 => ⟨S1700000x128, .f32⟩
  | 115 => ⟨S1700000x1, .f32⟩
  | 116 => ⟨S1700000x128, .f32⟩
  | 117 => ⟨S1700000x128, .f32⟩
  | 118 => ⟨S_, .f32⟩
  | 119 => ⟨S100000x128, .f32⟩
  | 120 => ⟨S1700000x1, .i32⟩
  | 121 => ⟨S100000x128, .f32⟩
  | 122 => ⟨S1x128, .f32⟩
  | 123 => ⟨S100000x128, .f32⟩
  | 124 => ⟨S100000x128, .f32⟩
  | 125 => ⟨S_, .f32⟩
  | 126 => ⟨S100000x128, .f32⟩
  | 127 => ⟨S100000x128, .f32⟩
  | _ => ⟨S100000x128, .f32⟩

abbrev hbmTy0_1 (i : Nat) : BufTy := match i % 128 with
  | 0 => ⟨S_, .f32⟩
  | 1 => ⟨S128x128, .f32⟩
  | 2 => ⟨S100000x1, .i32⟩
  | 3 => ⟨S128x128, .f32⟩
  | 4 => ⟨S_, .f32⟩
  | 5 => ⟨S100000, .f32⟩
  | 6 => ⟨S_, .f32⟩
  | 7 => ⟨S128, .f32⟩
  | 8 => ⟨S100000x1, .i32⟩
  | 9 => ⟨S128, .f32⟩
  | 10 => ⟨S_, .f32⟩
  | 11 => ⟨S128, .f32⟩
  | 12 => ⟨S128, .f32⟩
  | 13 => ⟨S128x1, .f32⟩
  | 14 => ⟨S128x128, .f32⟩
  | 15 => ⟨S128x128, .f32⟩
  | 16 => ⟨S128x16, .f32⟩
  | 17 => ⟨S1x16, .f32⟩
  | 18 => ⟨S128x16, .f32⟩
  | 19 => ⟨S128x16, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_cst_9 : Ref sig .tc := ⟨.hbm, 73, rfl⟩
abbrev main_v49 : Ref sig .tc := ⟨.hbm, 74, rfl⟩
abbrev main_cst_10 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_11 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v56 : Ref sig .tc := ⟨.hbm, 86, rfl⟩
abbrev main_c_13 : Ref sig .tc := ⟨.hbm, 87, rfl⟩
abbrev main_v57 : Ref sig .tc := ⟨.hbm, 88, rfl⟩
abbrev main_v58 : Ref sig .tc := ⟨.hbm, 89, rfl⟩
abbrev main_c_14 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_c_15 : Ref sig .tc := ⟨.hbm, 96, rfl⟩
abbrev main_v64 : Ref sig .tc := ⟨.hbm, 97, rfl⟩
abbrev main_v65 : Ref sig .tc := ⟨.hbm, 98, rfl⟩
abbrev main_c_16 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_c_17 : Ref sig .tc := ⟨.hbm, 106, rfl⟩
abbrev main_v72 : Ref sig .tc := ⟨.hbm, 107, rfl⟩
abbrev main_v73 : Ref sig .tc := ⟨.hbm, 108, rfl⟩
abbrev main_c_18 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_cst_19 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_call3_cst : Ref sig .tc := ⟨.hbm, 125, rfl⟩
abbrev main_call3_v0 : Ref sig .tc := ⟨.hbm, 126, rfl⟩
abbrev main_v88 : Ref sig .tc := ⟨.hbm, 127, rfl⟩
abbrev main_cst_20 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_cst_21 : Ref sig .tc := ⟨.hbm, 132, rfl⟩
abbrev main_v92 : Ref sig .tc := ⟨.hbm, 133, rfl⟩
abbrev main_cst_22 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_cst_23 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128x128 : S_.BroadcastsInDim S128x128 (![] : Fin 0 → Fin S128x128.rank)
  bcast_S100000_S100000x1_0 : S100000.BroadcastsInDim S100000x1 (![0] : Fin 1 → Fin S100000x1.rank)
  bcast_S_S128 : S_.BroadcastsInDim S128 (![] : Fin 0 → Fin S128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  bcast_S16_S1x16_1 : S16.BroadcastsInDim S1x16 (![1] : Fin 1 → Fin S1x16.rank)
  bcast_S1x16_S128x16_0_1 : S1x16.BroadcastsInDim S128x16 (![0, 1] : Fin 2 → Fin S128x16.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S128x128_S100000x1_S100000x128_1_0_0_1_wf : ScatterDims.WF S128x128 S100000x1 S100000x128 [1] [0] [0] 1
  scatter_S128_S100000x1_S100000_n_0_0_1_wf : ScatterDims.WF S128 S100000x1 S100000 [] [0] [0] 1
  dot_S128x128_S128x16_S128x16_1_0_0_1_n_n_wf : DotDims.WF S128x128 S128x16 S128x16 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S128x128_S100000x1_S100000x128_1_0_0_1 : ScatterDims S128x128 S100000x1 S100000x128 where
  updateWindowDims := [1]
  insertedWindowDims := [0]
  scatterDimsToOperandDims := [0]
  indexVectorDim := 1
  wf := scatter_S128x128_S100000x1_S100000x128_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def dot_S128x128_S128x16_S128x16_1_0_0_1_n_n : DotDims S128x128 S128x16 S128x16 where
  lhsContracting := [1]
  rhsContracting := [0]
  lhsNonContracting := [0]
  rhsNonContracting := [1]
  lhsBatch := []
  rhsBatch := []
  wf := dot_S128x128_S128x16_S128x16_1_0_0_1_n_n_wf

class Facts : Prop extends Facts₀ where

variable [Facts]
-- ==== Proof.Spec.lean ====
/-
  The mathematics of both programs, once.

  A two-layer graph convolution with a mean pool and a linear head.  From the edge list `ei` (two rows of
  1,600,000 node numbers) come the source and destination vectors of 1,700,000 entries (the edges, then one
  self-loop per node), the in-degree of every node (a scatter-add of ones by destination), its inverse square
  root where the degree is positive and zero elsewhere, and one weight per edge: the product of that quantity
  at the edge's two ends.  One layer is: a dense product of the node features with a weight matrix; per edge,
  the source node's row times the edge's weight; these rows summed by destination node; a bias row added and
  the result clamped below at zero.  The pool sums node rows by graph number and divides by the graph's node
  count, at least one.  The head is a dense product and a bias row.

  Each piece is named here over the reference program's own operations, so that the reference's result is
  `out` of its arguments by unfolding names, and the kernel's regions are compared with `dense`, `biasRelu`
  and `head` one at a time.
-/
import proofs.«140677_j76209899700340_1_alg».proof.Proof.Gen.ReferenceIdeal
import Idealize.ShloMosaic.Lib.StableHlo.Run

noncomputable section

namespace Cert.ReferenceIdeal.Spec

open Cert.ReferenceIdeal Cert.ReferenceIdeal.Gen Idealize.ShloMosaic Idealize.ShloMosaic.TcCoe Idealize.SL.Sem Idealize.ShloMosaic.StableHlo

variable {F : FTy → Type} [FloatOps F]

/-- The destination node of every edge: row 1 of the edge list, then the nodes themselves (the self-loops). -/
def dstIdx (ei : (⟨S2x1600000, .i32⟩ : BufTy).Contents (Elt F)) : (⟨S1700000, .i32⟩ : BufTy).Contents (Elt F) :=
  (concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0)

/-- The source node of every edge: row 0 of the edge list, then the nodes themselves. -/
def srcRaw (ei : (⟨S2x1600000, .i32⟩ : BufTy).Contents (Elt F)) : (⟨S1700000, .i32⟩ : BufTy).Contents (Elt F) :=
  (concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0)

/-- The source numbers as an index into the 100,000 nodes: a negative number counts from the end. -/
def srcSel (ei : (⟨S2x1600000, .i32⟩ : BufTy).Contents (Elt F)) : (⟨S1700000, .i32⟩ : BufTy).Contents (Elt F) :=
  (select (cmpi .slt (srcRaw (F := F) ei) (broadcastInDim S1700000 ![] bcast_S_S1700000 (constantI S_ 32 0#32))) (addi (srcRaw (F := F) ei) (broadcastInDim S1700000 ![] bcast_S_S1700000 (constantI S_ 32 100000#32))) (srcRaw (F := F) ei))

/-- The destination numbers as an index into the nodes, likewise. -/
def dstSel (ei : (⟨S2x1600000, .i32⟩ : BufTy).Contents (Elt F)) : (⟨S1700000, .i32⟩ : BufTy).Contents (Elt F) :=
  (select (cmpi .slt (dstIdx (F := F) ei) (broadcastInDim S1700000 ![] bcast_S_S1700000 (constantI S_ 32 0#32))) (addi (dstIdx (F := F) ei) (broadcastInDim S1700000 ![] bcast_S_S1700000 (constantI S_ 32 100000#32))) (dstIdx (F := F) ei))

/-- The in-degree of every node, self-loop included: ones summed by destination. -/
def deg (ei : (⟨S2x1600000, .i32⟩ : BufTy).Contents (Elt F)) : (⟨S100000, .f32⟩ : BufTy).Contents (Elt F) :=
  (Host.scatterAdd scatter_S100000_S1700000x1_S1700000_n_0_0_1 (broadcastInDim S100000 ![] bcast_S_S100000 (constant S_ .f32 0x00000000#32)) (broadcastInDim S1700000x1 ![0] bcast_S1700000_S1700000x1_0 (dstIdx (F := F) ei)) (broadcastInDim S1700000 ![] bcast_S_S1700000 (constant S_ .f32 0x3F800000#32)))

/-- degree^(-1/2) where the degree is positive, zero elsewhere. -/
def dinv (ei : (⟨S2x1600000, .i32⟩ : BufTy).Contents (Elt F)) : (⟨S100000, .f32⟩ : BufTy).Contents (Elt F) :=
  (select (cmpf (F := F) .ogt (deg (F := F) ei) (broadcastInDim S100000 ![] bcast_S_S100000 (constant S_ .f32 0x00000000#32))) (Host.rsqrt (deg (F := F) ei)) (broadcastInDim S100000 ![] bcast_S_S100000 (id (constant S_ .f32 0x00000000#32))))

/-- The weight of every edge: `dinv` at its source times `dinv` at its destination. -/
def normv (ei : (⟨S2x1600000, .i32⟩ : BufTy).Contents (Elt F)) : (⟨S1700000, .f32⟩ : BufTy).Contents (Elt F) :=
  (mulf (Host.gather gather_S100000_S1700000x1_S1700000_n_0_n_n_0_1_1 (dinv (F := F) ei) (broadcastInDim S1700000x1 ![0] bcast_S1700000_S1700000x1_0 (srcSel (F := F) ei))) (Host.gather gather_S100000_S1700000x1_S1700000_n_0_n_n_0_1_1 (dinv (F := F) ei) (broadcastInDim S1700000x1 ![0] bcast_S1700000_S1700000x1_0 (dstSel (F := F) ei))))

/-- The dense product of the node features [100000, 128] with a weight matrix [128, 128]. -/
def dense (x : (⟨S100000x128, .f32⟩ : BufTy).Contents (Elt F)) (w : (⟨S128x128, .f32⟩ : BufTy).Contents (Elt F)) : (⟨S100000x128, .f32⟩ : BufTy).Contents (Elt F) :=
  Host.dotGeneral dot_S100000x128_S128x128_S100000x128_1_0_0_1_n_n none x w

/-- Message passing: every edge carries its source node's row of `h` times the edge's weight, and each node sums the
    rows of the edges that end at it. -/
def agg (h : (⟨S100000x128, .f32⟩ : BufTy).Contents (Elt F)) (ei : (⟨S2x1600000, .i32⟩ : BufTy).Contents (Elt F)) : (⟨S100000x128, .f32⟩ : BufTy).Contents (Elt F) :=
  (Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 (dstIdx (F := F) ei)) (mulf (Host.gather gather_S100000x128_S1700000x1_S1700000x128_1_0_n_n_0_1_1128 h (broadcastInDim S1700000x1 ![0] bcast_S1700000_S1700000x1_0 (srcSel (F := F) ei))) (broadcastInDim S1700000x128 ![0, 1] bcast_S1700000x1_S1700000x128_0_1 (broadcastInDim S1700000x1 ![0] bcast_S1700000_S1700000x1_0 (normv (F := F) ei)))))

/-- A bias row added to every node's row, then the maximum with zero. -/
def biasRelu (a : (⟨S100000x128, .f32⟩ : BufTy).Contents (Elt F)) (b : (⟨S128, .f32⟩ : BufTy).Contents (Elt F)) : (⟨S100000x128, .f32⟩ : BufTy).Contents (Elt F) :=
  (maximumf (addf a (broadcastInDim S100000x128 ![0, 1] bcast_S1x128_S100000x128_0_1 (broadcastInDim S1x128 ![1] bcast_S128_S1x128_1 b))) (broadcastInDim S100000x128 ![] bcast_S_S100000x128 (constant S_ .f32 0x00000000#32)))

/-- The mean over each graph's nodes: rows summed by graph number, divided by the node count of the graph, at least 1. -/
def pool (r : (⟨S100000x128, .f32⟩ : BufTy).Contents (Elt F)) (batch : (⟨S100000, .i32⟩ : BufTy).Contents (Elt F)) : (⟨S128x128, .f32⟩ : BufTy).Contents (Elt F) :=
  (Host.divf (Host.scatterAdd scatter_S128x128_S100000x1_S100000x128_1_0_0_1 (broadcastInDim S128x128 ![] bcast_S_S128x128 (constant S_ .f32 0x00000000#32)) (broadcastInDim S100000x1 ![0] bcast_S100000_S100000x1_0 batch) r) (broadcastInDim S128x128 ![0, 1] bcast_S128x1_S128x128_0_1 (broadcastInDim S128x1 ![0] bcast_S128_S128x1_0 (maximumf (Host.scatterAdd scatter_S128_S100000x1_S100000_n_0_0_1 (broadcastInDim S128 ![] bcast_S_S128 (constant S_ .f32 0x00000000#32)) (broadcastInDim S100000x1 ![0] bcast_S100000_S100000x1_0 batch) (broadcastInDim S100000 ![] bcast_S_S100000 (constant S_ .f32 0x3F800000#32))) (broadcastInDim S128 ![] bcast_S_S128 (constant S_ .f32 0x3F800000#32))))))

/-- The classifier: the pooled rows [128, 128] times [128, 16], plus a bias row. -/
def head (p : (⟨S128x128, .f32⟩ : BufTy).Contents (Elt F)) (wc : (⟨S128x16, .f32⟩ : BufTy).Contents (Elt F)) (bc : (⟨S16, .f32⟩ : BufTy).Contents (Elt F)) : (⟨S128x16, .f32⟩ : BufTy).Contents (Elt F) :=
  addf (Host.dotGeneral dot_S128x128_S128x16_S128x16_1_0_0_1_n_n none p wc) (broadcastInDim S128x16 ![0, 1] bcast_S1x16_S128x16_0_1 (broadcastInDim S1x16 ![1] bcast_S16_S1x16_1 bc))

/-- The whole network. -/
def out (x : (⟨S100000x128, .f32⟩ : BufTy).Contents (Elt F)) (ei : (⟨S2x1600000, .i32⟩ : BufTy).Contents (Elt F)) (batch : (⟨S100000, .i32⟩ : BufTy).Contents (Elt F))
    (w1 : (⟨S128x128, .f32⟩ : BufTy).Contents (Elt F)) (b1 : (⟨S128, .f32⟩ : BufTy).Contents (Elt F)) (w2 : (⟨S128x128, .f32⟩ : BufTy).Contents (Elt F)) (b2 : (⟨S128, .f32⟩ : BufTy).Contents (Elt F))
    (wc : (⟨S128x16, .f32⟩ : BufTy).Contents (Elt F)) (bc : (⟨S16, .f32⟩ : BufTy).Contents (Elt F)) : (⟨S128x16, .f32⟩ : BufTy).Contents (Elt F) :=
  head (pool (biasRelu (agg (dense (biasRelu (agg (dense x w1) ei) b1) w2) ei) b2) batch) wc bc

end Cert.ReferenceIdeal.Spec

end
-- ==== Proof.RefValue.lean ====
/-
  The reference's result is the network of `Spec.out` applied to its nine arguments.

  The reference program is a straight line of host operations; its run (a repaired copy of the generated module,
  see its header) ends with the result buffer at the operations' composed term of the launch contents.  That term
  is `Spec.out` with every name unfolded: the two layers apply the same index, degree and edge-weight terms to
  the same edge list, so one name serves both.
-/
import proofs.«140677_j76209899700340_1_alg».proof.Proof.RefRunPatched
import proofs.«140677_j76209899700340_1_alg».proof.Proof.Spec

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- The composed term the run states is the named network of the arguments' launch contents. -/
theorem res_eq (m : (ℓ : Loc nD τ sig) → Buf (Elt F) ℓ) (c : Dev nD) :
    Cert.ReferenceIdeal.ValueP.res_main_v104 m c
      = Spec.out (F := F) (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) (m ((c.tc : Thread nD τ).loc main_arg6))
          (m ((c.tc : Thread nD τ).loc main_arg7)) (m ((c.tc : Thread nD τ).loc main_arg8)) := by
  unfold Cert.ReferenceIdeal.ValueP.res_main_v104 Spec.out Spec.head Spec.pool Spec.biasRelu Spec.agg Spec.dense Spec.normv Spec.dinv Spec.deg Spec.srcSel Spec.dstSel Spec.srcRaw Spec.dstIdx
  rfl

end Cert.ReferenceIdeal.RefValue

end
-- ==== Proof.RunResult.lean ====
/-
  The idealized kernel's run with its RESULT named.

  The program is eleven segments: stretches of host operations and five pipelined regions.  The contents of
  every unscoped buffer at each segment boundary are a fold from the launch memory (host stretch: the
  operations applied in order; region: its windows' arrays at what the write-backs leave, every other buffer
  as entered).  The launch rule over those segments ends with every unscoped buffer holding the LAST
  boundary's contents.  Read at the nine argument buffers that gives "the arguments end unchanged"; read at
  the result buffer it says what the program returns: the last boundary's contents at that buffer.  This
  module states that stronger post; the modules that follow compute the last boundary's contents.
-/
import proofs.«140677_j76209899700340_1_alg».proof.Proof.Gen.KernelIdeal.Frame

set_option maxRecDepth 16384

noncomputable section

namespace Cert.KernelIdeal.RunResult

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    segment boundary's contents and the nine arguments as launched. -/
theorem run_result : θ_run defs (onTc (τ := τ) (main (F := F))) ⟨m, fun _ => 0, ρ⟩ (fun r => ∀ c : Dev nD,
      r.2.mem ((c.tc : Thread nD τ).loc main_v75) = W11 m ρ c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v75 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c)⟩)

end Cert.KernelIdeal.RunResult

end
-- ==== Proof.Walk.lean ====
/-
  The idealized kernel's result buffer, walked back to the launch memory.

  The buffer contents at the eleven segment boundaries are a fold: a host stretch applies its operations in
  order, a region replaces its windows' arrays by what its write-backs leave and keeps every other buffer.
  Each lemma reads ONE buffer at ONE boundary as a named function (`Spec`) of the argument arrays: the source and
  destination vectors and the edge weights are computed before the first region and then only carried; the
  first region leaves x·w1, the host gathers, scales and sums it by destination, the second region adds the
  bias and clamps, the third multiplies by w2, the host aggregates again, the fourth adds and clamps, the host
  pools by graph, the fifth applies the classifier.  A buffer a segment does not write is the same before and
  after it: on a host stretch because no operation names it as its result, at a region because it is none of the
  region's arrays.
-/
import proofs.«140677_j76209899700340_1_alg».proof.Proof.Gen.KernelIdeal.Frame
import proofs.«140677_j76209899700340_1_alg».proof.Proof.Spec
import Idealize.ShloMosaic.Lib.StableHlo.Run
import Idealize.ShloMosaic.PureOps.Ideal

set_option maxRecDepth 16384

noncomputable section

namespace Cert.KernelIdeal.Walk

open Idealize.ShloMosaic Idealize.ShloMosaic.TcCoe Idealize.SL.Sem Idealize.ShloMosaic.StableHlo
open Cert.KernelIdeal Cert.KernelIdeal.Gen

/-! ## The five regions' values, as hypotheses

Each says: after the region's pipeline has run from entry contents `V`, its output array is the reference's
whole-array operation of the input arrays as the region found them.  They are proved one region at a time elsewhere;
the walk below only uses them. -/

/-- Region 0: the node features times the first weight matrix. -/
def R0 : Prop := ∀ (V : (c : Dev nD) → (b : Ref sig .tc) → Buf (Elt Ideal) ((c : Thread nD τ).loc b)) (c : Dev nD),
    (dat0 (F := Ideal) V c).arrAt 2 cfg0.N = Cert.ReferenceIdeal.Spec.dense (F := Ideal) (V c main_arg0) (V c main_arg3)
/-- Region 1: the first bias row added and the clamp at zero; the bias window holds the reshape of a vector `b`. -/
def R1 : Prop := ∀ (V : (c : Dev nD) → (b : Ref sig .tc) → Buf (Elt Ideal) ((c : Thread nD τ).loc b)) (c : Dev nD) (b : (⟨Cert.ReferenceIdeal.S128, .f32⟩ : BufTy).Contents (Elt Ideal)),
    V c main_v44 = shapeCast S1x128 b shapeCasts_S128_S1x128 →
    (dat1 (F := Ideal) V c).arrAt 2 cfg1.N = Cert.ReferenceIdeal.Spec.biasRelu (F := Ideal) (V c main_v43) b
/-- Region 2: the first layer's rows times the second weight matrix. -/
def R2 : Prop := ∀ (V : (c : Dev nD) → (b : Ref sig .tc) → Buf (Elt Ideal) ((c : Thread nD τ).loc b)) (c : Dev nD),
    (dat2 (F := Ideal) V c).arrAt 2 cfg2.N = Cert.ReferenceIdeal.Spec.dense (F := Ideal) (V c main_v45) (V c main_arg5)
/-- Region 3: the second bias row and clamp. -/
def R3 : Prop := ∀ (V : (c : Dev nD) → (b : Ref sig .tc) → Buf (Elt Ideal) ((c : Thread nD τ).loc b)) (c : Dev nD) (b : (⟨Cert.ReferenceIdeal.S128, .f32⟩ : BufTy).Contents (Elt Ideal)),
    V c main_v60 = shapeCast S1x128 b shapeCasts_S128_S1x128 →
    (dat3 (F := Ideal) V c).arrAt 2 cfg3.N = Cert.ReferenceIdeal.Spec.biasRelu (F := Ideal) (V c main_v59) b
/-- Region 4: the pooled rows times the classifier matrix, plus its bias row. -/
def R4 : Prop := ∀ (V : (c : Dev nD) → (b : Ref sig .tc) → Buf (Elt Ideal) ((c : Thread nD τ).loc b)) (c : Dev nD) (b : (⟨Cert.ReferenceIdeal.S16, .f32⟩ : BufTy).Contents (Elt Ideal)),
    V c main_v74 = shapeCast S1x16 b shapeCasts_S16_S1x16 →
    (dat4 (F := Ideal) V c).arrAt 3 cfg4.N = Cert.ReferenceIdeal.Spec.head (F := Ideal) (V c main_v73) (V c main_arg7) b

/-! # Before the first region, at any float instance

These stretches are host operations only, so what they leave is the same term at every instance; stated once,
for any `F`. -/

section AnyInstance

variable {F : FTy → Type} [FloatOps F]
variable (m : (ℓ : Loc nD τ sig) → Buf (Elt F) ℓ) (ρ : Dev nD → PrngReg) (c : Dev nD)

/-! ## The first stretch: the source and destination vectors, the degree's comparison and inverse root -/

theorem W1_v3 : W1 m ρ c (Proc.devRef .tc main_v3) = Cert.ReferenceIdeal.Spec.srcRaw (F := F) (m ((c : Thread nD τ).loc main_arg1)) :=
  by simp only [W1, hostOps0]; after_results_simp <;> rfl

theorem W1_v6 : W1 m ρ c (Proc.devRef .tc main_v6) = Cert.ReferenceIdeal.Spec.dstIdx (F := F) (m ((c : Thread nD τ).loc main_arg1)) :=
  by simp only [W1, hostOps0]; after_results_simp <;> rfl

theorem W1_v12 : W1 m ρ c (Proc.devRef .tc main_v12) = (cmpf (F := F) .ogt (Cert.ReferenceIdeal.Spec.deg (F := F) (m ((c : Thread nD τ).loc main_arg1))) (broadcastInDim S100000 ![] bcast_S_S100000 (constant S_ .f32 0x00000000#32)) : (⟨S100000, .i1⟩ : BufTy).Contents (Elt F)) :=
  by simp only [W1, hostOps0]; after_results_simp <;> rfl

theorem W1_v13 : W1 m ρ c (Proc.devRef .tc main_v13) = (Host.rsqrt (Cert.ReferenceIdeal.Spec.deg (F := F) (m ((c : Thread nD τ).loc main_arg1))) : FVec F S100000 .f32) :=
  by simp only [W1, hostOps0]; after_results_simp <;> rfl

theorem W1_cst_2 : W1 m ρ c (Proc.devRef .tc main_cst_2) = constant (F := F) S_ .f32 0x00000000#32 :=
  by simp only [W1, hostOps0]; after_results_simp <;> rfl

theorem W1_arg0 : W1 m ρ c (Proc.devRef .tc main_arg0) = m ((c : Thread nD τ).loc main_arg0) :=
  by simp only [W1, hostOps0]; after_results_simp <;> rfl

theorem W1_arg2 : W1 m ρ c (Proc.devRef .tc main_arg2) = m ((c : Thread nD τ).loc main_arg2) :=
  by simp only [W1, hostOps0]; after_results_simp <;> rfl

theorem W1_arg3 : W1 m ρ c (Proc.devRef .tc main_arg3) = m ((c : Thread nD τ).loc main_arg3) :=
  by simp only [W1, hostOps0]; after_results_simp <;> rfl

theorem W1_arg4 : W1 m ρ c (Proc.devRef .tc main_arg4) = m ((c : Thread nD τ).loc main_arg4) :=
  by simp only [W1, hostOps0]; after_results_simp <;> rfl

theorem W1_arg5 : W1 m ρ c (Proc.devRef .tc main_arg5) = m ((c : Thread nD τ).loc main_arg5) :=
  by simp only [W1, hostOps0]; after_results_simp <;> rfl

theorem W1_arg6 : W1 m ρ c (Proc.devRef .tc main_arg6) = m ((c : Thread nD τ).loc main_arg6) :=
  by simp only [W1, hostOps0]; after_results_simp <;> rfl

theorem W1_arg7 : W1 m ρ c (Proc.devRef .tc main_arg7) = m ((c : Thread nD τ).loc main_arg7) :=
  by simp only [W1, hostOps0]; after_results_simp <;> rfl

theorem W1_arg8 : W1 m ρ c (Proc.devRef .tc main_arg8) = m ((c : Thread nD τ).loc main_arg8) :=
  by simp only [W1, hostOps0]; after_results_simp <;> rfl

/-! ## The outlined `where`: degree^(-1/2) where the degree is positive, zero elsewhere -/

theorem W2_v14 : W2 m ρ c (Proc.devRef .tc main_v14) = Cert.ReferenceIdeal.Spec.dinv (F := F) (m ((c : Thread nD τ).loc main_arg1)) :=
  by
  have e0 := W1_v12 m ρ c; have e1 := W1_v13 m ρ c; have e2 := W1_cst_2 m ρ c
  show StableHlo.after hostOps0_1 (W1 m ρ c) (Proc.devRef .tc main_v14) = _
  generalize W1 m ρ c = V' at e0 e1 e2 ⊢
  simp only [hostOps0_1]; after_results_simp
  rw [e0, e1, e2]
  rfl

theorem W2_v3 : W2 m ρ c (Proc.devRef .tc main_v3) = Cert.ReferenceIdeal.Spec.srcRaw (F := F) (m ((c : Thread nD τ).loc main_arg1)) :=
  (show StableHlo.after hostOps0_1 (W1 m ρ c) (Proc.devRef .tc main_v3) = W1 m ρ c (Proc.devRef .tc main_v3) by
    generalize W1 m ρ c = V'; simp only [hostOps0_1]; after_results_simp).trans (W1_v3 m ρ c)

theorem W2_v6 : W2 m ρ c (Proc.devRef .tc main_v6) = Cert.ReferenceIdeal.Spec.dstIdx (F := F) (m ((c : Thread nD τ).loc main_arg1)) :=
  (show StableHlo.after hostOps0_1 (W1 m ρ c) (Proc.devRef .tc main_v6) = W1 m ρ c (Proc.devRef .tc main_v6) by
    generalize W1 m ρ c = V'; simp only [hostOps0_1]; after_results_simp).trans (W1_v6 m ρ c)

theorem W2_arg0 : W2 m ρ c (Proc.devRef .tc main_arg0) = m ((c : Thread nD τ).loc main_arg0) :=
  (show StableHlo.after hostOps0_1 (W1 m ρ c) (Proc.devRef .tc main_arg0) = W1 m ρ c (Proc.devRef .tc main_arg0) by
    generalize W1 m ρ c = V'; simp only [hostOps0_1]; after_results_simp).trans (W1_arg0 m ρ c)

theorem W2_arg2 : W2 m ρ c (Proc.devRef .tc main_arg2) = m ((c : Thread nD τ).loc main_arg2) :=
  (show StableHlo.after hostOps0_1 (W1 m ρ c) (Proc.devRef .tc main_arg2) = W1 m ρ c (Proc.devRef .tc main_arg2) by
    generalize W1 m ρ c = V'; simp only [hostOps0_1]; after_results_simp).trans (W1_arg2 m ρ c)

theorem W2_arg3 : W2 m ρ c (Proc.devRef .tc main_arg3) = m ((c : Thread nD τ).loc main_arg3) :=
  (show StableHlo.after hostOps0_1 (W1 m ρ c) (Proc.devRef .tc main_arg3) = W1 m ρ c (Proc.devRef .tc main_arg3) by
    generalize W1 m ρ c = V'; simp only [hostOps0_1]; after_results_simp).trans (W1_arg3 m ρ c)

theorem W2_arg4 : W2 m ρ c (Proc.devRef .tc main_arg4) = m ((c : Thread nD τ).loc main_arg4) :=
  (show StableHlo.after hostOps0_1 (W1 m ρ c) (Proc.devRef .tc main_arg4) = W1 m ρ c (Proc.devRef .tc main_arg4) by
    generalize W1 m ρ c = V'; simp only [hostOps0_1]; after_results_simp).trans (W1_arg4 m ρ c)

theorem W2_arg5 : W2 m ρ c (Proc.devRef .tc main_arg5) = m ((c : Thread nD τ).loc main_arg5) :=
  (show StableHlo.after hostOps0_1 (W1 m ρ c) (Proc.devRef .tc main_arg5) = W1 m ρ c (Proc.devRef .tc main_arg5) by
    generalize W1 m ρ c = V'; simp only [hostOps0_1]; after_results_simp).trans (W1_arg5 m ρ c)

theorem W2_arg6 : W2 m ρ c (Proc.devRef .tc main_arg6) = m ((c : Thread nD τ).loc main_arg6) :=
  (show StableHlo.after hostOps0_1 (W1 m ρ c) (Proc.devRef .tc main_arg6) = W1 m ρ c (Proc.devRef .tc main_arg6) by
    generalize W1 m ρ c = V'; simp only [hostOps0_1]; after_results_simp).trans (W1_arg6 m ρ c)

theorem W2_arg7 : W2 m ρ c (Proc.devRef .tc main_arg7) = m ((c : Thread nD τ).loc main_arg7) :=
  (show StableHlo.after hostOps0_1 (W1 m ρ c) (Proc.devRef .tc main_arg7) = W1 m ρ c (Proc.devRef .tc main_arg7) by
    generalize W1 m ρ c = V'; simp only [hostOps0_1]; after_results_simp).trans (W1_arg7 m ρ c)

theorem W2_arg8 : W2 m ρ c (Proc.devRef .tc main_arg8) = m ((c : Thread nD τ).loc main_arg8) :=
  (show StableHlo.after hostOps0_1 (W1 m ρ c) (Proc.devRef .tc main_arg8) = W1 m ρ c (Proc.devRef .tc main_arg8) by
    generalize W1 m ρ c = V'; simp only [hostOps0_1]; after_results_simp).trans (W1_arg8 m ρ c)

/-! ## The third stretch: the edge weights, the product of that quantity at an edge's two ends -/

theorem W3_v29 : W3 m ρ c (Proc.devRef .tc main_v29) = Cert.ReferenceIdeal.Spec.normv (F := F) (m ((c : Thread nD τ).loc main_arg1)) :=
  by
  have e0 := W2_v14 m ρ c; have e1 := W2_v3 m ρ c; have e2 := W2_v6 m ρ c
  show StableHlo.after hostOps0_2 (W2 m ρ c) (Proc.devRef .tc main_v29) = _
  generalize W2 m ρ c = V' at e0 e1 e2 ⊢
  simp only [hostOps0_2]; after_results_simp
  rw [e0, e1, e2]
  rfl

theorem W3_v3 : W3 m ρ c (Proc.devRef .tc main_v3) = Cert.ReferenceIdeal.Spec.srcRaw (F := F) (m ((c : Thread nD τ).loc main_arg1)) :=
  (show StableHlo.after hostOps0_2 (W2 m ρ c) (Proc.devRef .tc main_v3) = W2 m ρ c (Proc.devRef .tc main_v3) by
    generalize W2 m ρ c = V'; simp only [hostOps0_2]; after_results_simp).trans (W2_v3 m ρ c)

theorem W3_v6 : W3 m ρ c (Proc.devRef .tc main_v6) = Cert.ReferenceIdeal.Spec.dstIdx (F := F) (m ((c : Thread nD τ).loc main_arg1)) :=
  (show StableHlo.after hostOps0_2 (W2 m ρ c) (Proc.devRef .tc main_v6) = W2 m ρ c (Proc.devRef .tc main_v6) by
    generalize W2 m ρ c = V'; simp only [hostOps0_2]; after_results_simp).trans (W2_v6 m ρ c)

theorem W3_arg0 : W3 m ρ c (Proc.devRef .tc main_arg0) = m ((c : Thread nD τ).loc main_arg0) :=
  (show StableHlo.after hostOps0_2 (W2 m ρ c) (Proc.devRef .tc main_arg0) = W2 m ρ c (Proc.devRef .tc main_arg0) by
    generalize W2 m ρ c = V'; simp only [hostOps0_2]; after_results_simp).trans (W2_arg0 m ρ c)

theorem W3_arg2 : W3 m ρ c (Proc.devRef .tc main_arg2) = m ((c : Thread nD τ).loc main_arg2) :=
  (show StableHlo.after hostOps0_2 (W2 m ρ c) (Proc.devRef .tc main_arg2) = W2 m ρ c (Proc.devRef .tc main_arg2) by
    generalize W2 m ρ c = V'; simp only [hostOps0_2]; after_results_simp).trans (W2_arg2 m ρ c)

theorem W3_arg3 : W3 m ρ c (Proc.devRef .tc main_arg3) = m ((c : Thread nD τ).loc main_arg3) :=
  (show StableHlo.after hostOps0_2 (W2 m ρ c) (Proc.devRef .tc main_arg3) = W2 m ρ c (Proc.devRef .tc main_arg3) by
    generalize W2 m ρ c = V'; simp only [hostOps0_2]; after_results_simp).trans (W2_arg3 m ρ c)

theorem W3_arg4 : W3 m ρ c (Proc.devRef .tc main_arg4) = m ((c : Thread nD τ).loc main_arg4) :=
  (show StableHlo.after hostOps0_2 (W2 m ρ c) (Proc.devRef .tc main_arg4) = W2 m ρ c (Proc.devRef .tc main_arg4) by
    generalize W2 m ρ c = V'; simp only [hostOps0_2]; after_results_simp).trans (W2_arg4 m ρ c)

theorem W3_arg5 : W3 m ρ c (Proc.devRef .tc main_arg5) = m ((c : Thread nD τ).loc main_arg5) :=
  (show StableHlo.after hostOps0_2 (W2 m ρ c) (Proc.devRef .tc main_arg5) = W2 m ρ c (Proc.devRef .tc main_arg5) by
    generalize W2 m ρ c = V'; simp only [hostOps0_2]; after_results_simp).trans (W2_arg5 m ρ c)

theorem W3_arg6 : W3 m ρ c (Proc.devRef .tc main_arg6) = m ((c : Thread nD τ).loc main_arg6) :=
  (show StableHlo.after hostOps0_2 (W2 m ρ c) (Proc.devRef .tc main_arg6) = W2 m ρ c (Proc.devRef .tc main_arg6) by
    generalize W2 m ρ c = V'; simp only [hostOps0_2]; after_results_simp).trans (W2_arg6 m ρ c)

theorem W3_arg7 : W3 m ρ c (Proc.devRef .tc main_arg7) = m ((c : Thread nD τ).loc main_arg7) :=
  (show StableHlo.after hostOps0_2 (W2 m ρ c) (Proc.devRef .tc main_arg7) = W2 m ρ c (Proc.devRef .tc main_arg7) by
    generalize W2 m ρ c = V'; simp only [hostOps0_2]; after_results_simp).trans (W2_arg7 m ρ c)

theorem W3_arg8 : W3 m ρ c (Proc.devRef .tc main_arg8) = m ((c : Thread nD τ).loc main_arg8) :=
  (show StableHlo.after hostOps0_2 (W2 m ρ c) (Proc.devRef .tc main_arg8) = W2 m ρ c (Proc.devRef .tc main_arg8) by
    generalize W2 m ρ c = V'; simp only [hostOps0_2]; after_results_simp).trans (W2_arg8 m ρ c)

end AnyInstance

/-! # From the first region on, at the ideal instance -/

section AtIdeal

variable (m : (ℓ : Loc nD τ sig) → Buf (Elt Ideal) ℓ) (ρ : Dev nD → PrngReg) (c : Dev nD)

/-! ## Region 0 leaves the first dense product; everything else is as it found it -/

theorem W4_v30 (h0 : R0) : W4 m ρ c (Proc.devRef .tc main_v30) = Cert.ReferenceIdeal.Spec.dense (F := Ideal) (m ((c : Thread nD τ).loc main_arg0)) (m ((c : Thread nD τ).loc main_arg3)) :=
  (W4_arr m ρ c 2).trans ((h0 (V3 m ρ) c).trans (congrArg₂ (Cert.ReferenceIdeal.Spec.dense (F := Ideal)) (W3_arg0 m ρ c) (W3_arg3 m ρ c)))

theorem W4_v3 : W4 m ρ c (Proc.devRef .tc main_v3) = Cert.ReferenceIdeal.Spec.srcRaw (F := Ideal) (m ((c : Thread nD τ).loc main_arg1)) :=
  (W4_of_ne m ρ c main_v3 (by decide)).trans (W3_v3 m ρ c)

theorem W4_v6 : W4 m ρ c (Proc.devRef .tc main_v6) = Cert.ReferenceIdeal.Spec.dstIdx (F := Ideal) (m ((c : Thread nD τ).loc main_arg1)) :=
  (W4_of_ne m ρ c main_v6 (by decide)).trans (W3_v6 m ρ c)

theorem W4_v29 : W4 m ρ c (Proc.devRef .tc main_v29) = Cert.ReferenceIdeal.Spec.normv (F := Ideal) (m ((c : Thread nD τ).loc main_arg1)) :=
  (W4_of_ne m ρ c main_v29 (by decide)).trans (W3_v29 m ρ c)

theorem W4_arg2 : W4 m ρ c (Proc.devRef .tc main_arg2) = m ((c : Thread nD τ).loc main_arg2) :=
  (W4_of_ne m ρ c main_arg2 (by decide)).trans (W3_arg2 m ρ c)

theorem W4_arg4 : W4 m ρ c (Proc.devRef .tc main_arg4) = m ((c : Thread nD τ).loc main_arg4) :=
  (W4_of_ne m ρ c main_arg4 (by decide)).trans (W3_arg4 m ρ c)

theorem W4_arg5 : W4 m ρ c (Proc.devRef .tc main_arg5) = m ((c : Thread nD τ).loc main_arg5) :=
  (W4_of_ne m ρ c main_arg5 (by decide)).trans (W3_arg5 m ρ c)

theorem W4_arg6 : W4 m ρ c (Proc.devRef .tc main_arg6) = m ((c : Thread nD τ).loc main_arg6) :=
  (W4_of_ne m ρ c main_arg6 (by decide)).trans (W3_arg6 m ρ c)

theorem W4_arg7 : W4 m ρ c (Proc.devRef .tc main_arg7) = m ((c : Thread nD τ).loc main_arg7) :=
  (W4_of_ne m ρ c main_arg7 (by decide)).trans (W3_arg7 m ρ c)

theorem W4_arg8 : W4 m ρ c (Proc.devRef .tc main_arg8) = m ((c : Thread nD τ).loc main_arg8) :=
  (W4_of_ne m ρ c main_arg8 (by decide)).trans (W3_arg8 m ρ c)

/-! ## The first message passing, on the host: gather by source, scale by the edge weight, sum by destination -/

theorem W5_v43 (h0 : R0) : W5 m ρ c (Proc.devRef .tc main_v43) = Cert.ReferenceIdeal.Spec.agg (F := Ideal) (Cert.ReferenceIdeal.Spec.dense (F := Ideal) (m ((c : Thread nD τ).loc main_arg0)) (m ((c : Thread nD τ).loc main_arg3))) (m ((c : Thread nD τ).loc main_arg1)) :=
  by
  simp only [W5, hostOps1]; after_results_simp
  rw [W4_v30 m ρ c h0, W4_v3 m ρ c, W4_v6 m ρ c, W4_v29 m ρ c]
  rfl

theorem W5_v44 : W5 m ρ c (Proc.devRef .tc main_v44) = shapeCast S1x128 (m ((c : Thread nD τ).loc main_arg4)) shapeCasts_S128_S1x128 :=
  by
  simp only [W5, hostOps1]; after_results_simp
  rw [W4_arg4 m ρ c]
  rfl

theorem W5_v3 : W5 m ρ c (Proc.devRef .tc main_v3) = Cert.ReferenceIdeal.Spec.srcRaw (F := Ideal) (m ((c : Thread nD τ).loc main_arg1)) :=
  (show W5 m ρ c (Proc.devRef .tc main_v3) = W4 m ρ c (Proc.devRef .tc main_v3) by simp only [W5, hostOps1]; after_results_simp).trans (W4_v3 m ρ c)

theorem W5_v6 : W5 m ρ c (Proc.devRef .tc main_v6) = Cert.ReferenceIdeal.Spec.dstIdx (F := Ideal) (m ((c : Thread nD τ).loc main_arg1)) :=
  (show W5 m ρ c (Proc.devRef .tc main_v6) = W4 m ρ c (Proc.devRef .tc main_v6) by simp only [W5, hostOps1]; after_results_simp).trans (W4_v6 m ρ c)

theorem W5_v29 : W5 m ρ c (Proc.devRef .tc main_v29) = Cert.ReferenceIdeal.Spec.normv (F := Ideal) (m ((c : Thread nD τ).loc main_arg1)) :=
  (show W5 m ρ c (Proc.devRef .tc main_v29) = W4 m ρ c (Proc.devRef .tc main_v29) by simp only [W5, hostOps1]; after_results_simp).trans (W4_v29 m ρ c)

theorem W5_arg2 : W5 m ρ c (Proc.devRef .tc main_arg2) = m ((c : Thread nD τ).loc main_arg2) :=
  (show W5 m ρ c (Proc.devRef .tc main_arg2) = W4 m ρ c (Proc.devRef .tc main_arg2) by simp only [W5, hostOps1]; after_results_simp).trans (W4_arg2 m ρ c)

theorem W5_arg5 : W5 m ρ c (Proc.devRef .tc main_arg5) = m ((c : Thread nD τ).loc main_arg5) :=
  (show W5 m ρ c (Proc.devRef .tc main_arg5) = W4 m ρ c (Proc.devRef .tc main_arg5) by simp only [W5, hostOps1]; after_results_simp).trans (W4_arg5 m ρ c)

theorem W5_arg6 : W5 m ρ c (Proc.devRef .tc main_arg6) = m ((c : Thread nD τ).loc main_arg6) :=
  (show W5 m ρ c (Proc.devRef .tc main_arg6) = W4 m ρ c (Proc.devRef .tc main_arg6) by simp only [W5, hostOps1]; after_results_simp).trans (W4_arg6 m ρ c)

theorem W5_arg7 : W5 m ρ c (Proc.devRef .tc main_arg7) = m ((c : Thread nD τ).loc main_arg7) :=
  (show W5 m ρ c (Proc.devRef .tc main_arg7) = W4 m ρ c (Proc.devRef .tc main_arg7) by simp only [W5, hostOps1]; after_results_simp).trans (W4_arg7 m ρ c)

theorem W5_arg8 : W5 m ρ c (Proc.devRef .tc main_arg8) = m ((c : Thread nD τ).loc main_arg8) :=
  (show W5 m ρ c (Proc.devRef .tc main_arg8) = W4 m ρ c (Proc.devRef .tc main_arg8) by simp only [W5, hostOps1]; after_results_simp).trans (W4_arg8 m ρ c)

/-! ## Region 1 leaves the first layer's output -/

theorem W6_v45 (h0 : R0) (h1 : R1) : W6 m ρ c (Proc.devRef .tc main_v45) = Cert.ReferenceIdeal.Spec.biasRelu (F := Ideal) (Cert.ReferenceIdeal.Spec.agg (F := Ideal) (Cert.ReferenceIdeal.Spec.dense (F := Ideal) (m ((c : Thread nD τ).loc main_arg0)) (m ((c : Thread nD τ).loc main_arg3))) (m ((c : Thread nD τ).loc main_arg1))) (m ((c : Thread nD τ).loc main_arg4)) :=
  (W6_arr m ρ c 2).trans ((h1 (V5 m ρ) c (m ((c : Thread nD τ).loc main_arg4)) (W5_v44 m ρ c)).trans (congrArg (fun a => Cert.ReferenceIdeal.Spec.biasRelu (F := Ideal) a (m ((c : Thread nD τ).loc main_arg4))) (W5_v43 m ρ c h0)))

theorem W6_v3 : W6 m ρ c (Proc.devRef .tc main_v3) = Cert.ReferenceIdeal.Spec.srcRaw (F := Ideal) (m ((c : Thread nD τ).loc main_arg1)) :=
  (W6_of_ne m ρ c main_v3 (by decide)).trans (W5_v3 m ρ c)

theorem W6_v6 : W6 m ρ c (Proc.devRef .tc main_v6) = Cert.ReferenceIdeal.Spec.dstIdx (F := Ideal) (m ((c : Thread nD τ).loc main_arg1)) :=
  (W6_of_ne m ρ c main_v6 (by decide)).trans (W5_v6 m ρ c)

theorem W6_v29 : W6 m ρ c (Proc.devRef .tc main_v29) = Cert.ReferenceIdeal.Spec.normv (F := Ideal) (m ((c : Thread nD τ).loc main_arg1)) :=
  (W6_of_ne m ρ c main_v29 (by decide)).trans (W5_v29 m ρ c)

theorem W6_arg2 : W6 m ρ c (Proc.devRef .tc main_arg2) = m ((c : Thread nD τ).loc main_arg2) :=
  (W6_of_ne m ρ c main_arg2 (by decide)).trans (W5_arg2 m ρ c)

theorem W6_arg5 : W6 m ρ c (Proc.devRef .tc main_arg5) = m ((c : Thread nD τ).loc main_arg5) :=
  (W6_of_ne m ρ c main_arg5 (by decide)).trans (W5_arg5 m ρ c)

theorem W6_arg6 : W6 m ρ c (Proc.devRef .tc main_arg6) = m ((c : Thread nD τ).loc main_arg6) :=
  (W6_of_ne m ρ c main_arg6 (by decide)).trans (W5_arg6 m ρ c)

theorem W6_arg7 : W6 m ρ c (Proc.devRef .tc main_arg7) = m ((c : Thread nD τ).loc main_arg7) :=
  (W6_of_ne m ρ c main_arg7 (by decide)).trans (W5_arg7 m ρ c)

theorem W6_arg8 : W6 m ρ c (Proc.devRef .tc main_arg8) = m ((c : Thread nD τ).loc main_arg8) :=
  (W6_of_ne m ρ c main_arg8 (by decide)).trans (W5_arg8 m ρ c)

/-! ## Region 2 leaves the second dense product -/

theorem W7_v46 (h0 : R0) (h1 : R1) (h2 : R2) : W7 m ρ c (Proc.devRef .tc main_v46) = Cert.ReferenceIdeal.Spec.dense (F := Ideal) (Cert.ReferenceIdeal.Spec.biasRelu (F := Ideal) (Cert.ReferenceIdeal.Spec.agg (F := Ideal) (Cert.ReferenceIdeal.Spec.dense (F := Ideal) (m ((c : Thread nD τ).loc main_arg0)) (m ((c : Thread nD τ).loc main_arg3))) (m ((c : Thread nD τ).loc main_arg1))) (m ((c : Thread nD τ).loc main_arg4))) (m ((c : Thread nD τ).loc main_arg5)) :=
  (W7_arr m ρ c 2).trans ((h2 (V6 m ρ) c).trans (congrArg₂ (Cert.ReferenceIdeal.Spec.dense (F := Ideal)) (W6_v45 m ρ c h0 h1) (W6_arg5 m ρ c)))

theorem W7_v3 : W7 m ρ c (Proc.devRef .tc main_v3) = Cert.ReferenceIdeal.Spec.srcRaw (F := Ideal) (m ((c : Thread nD τ).loc main_arg1)) :=
  (W7_of_ne m ρ c main_v3 (by decide)).trans (W6_v3 m ρ c)

theorem W7_v6 : W7 m ρ c (Proc.devRef .tc main_v6) = Cert.ReferenceIdeal.Spec.dstIdx (F := Ideal) (m ((c : Thread nD τ).loc main_arg1)) :=
  (W7_of_ne m ρ c main_v6 (by decide)).trans (W6_v6 m ρ c)

theorem W7_v29 : W7 m ρ c (Proc.devRef .tc main_v29) = Cert.ReferenceIdeal.Spec.normv (F := Ideal) (m ((c : Thread nD τ).loc main_arg1)) :=
  (W7_of_ne m ρ c main_v29 (by decide)).trans (W6_v29 m ρ c)

theorem W7_arg2 : W7 m ρ c (Proc.devRef .tc main_arg2) = m ((c : Thread nD τ).loc main_arg2) :=
  (W7_of_ne m ρ c main_arg2 (by decide)).trans (W6_arg2 m ρ c)

theorem W7_arg6 : W7 m ρ c (Proc.devRef .tc main_arg6) = m ((c : Thread nD τ).loc main_arg6) :=
  (W7_of_ne m ρ c main_arg6 (by decide)).trans (W6_arg6 m ρ c)

theorem W7_arg7 : W7 m ρ c (Proc.devRef .tc main_arg7) = m ((c : Thread nD τ).loc main_arg7) :=
  (W7_of_ne m ρ c main_arg7 (by decide)).trans (W6_arg7 m ρ c)

theorem W7_arg8 : W7 m ρ c (Proc.devRef .tc main_arg8) = m ((c : Thread nD τ).loc main_arg8) :=
  (W7_of_ne m ρ c main_arg8 (by decide)).trans (W6_arg8 m ρ c)

/-! ## The second message passing, on the host -/

theorem W8_v59 (h0 : R0) (h1 : R1) (h2 : R2) : W8 m ρ c (Proc.devRef .tc main_v59) = Cert.ReferenceIdeal.Spec.agg (F := Ideal) (Cert.ReferenceIdeal.Spec.dense (F := Ideal) (Cert.ReferenceIdeal.Spec.biasRelu (F := Ideal) (Cert.ReferenceIdeal.Spec.agg (F := Ideal) (Cert.ReferenceIdeal.Spec.dense (F := Ideal) (m ((c : Thread nD τ).loc main_arg0)) (m ((c : Thread nD τ).loc main_arg3))) (m ((c : Thread nD τ).loc main_arg1))) (m ((c : Thread nD τ).loc main_arg4))) (m ((c : Thread nD τ).loc main_arg5))) (m ((c : Thread nD τ).loc main_arg1)) :=
  by
  simp only [W8, hostOps3]; after_results_simp
  rw [W7_v46 m ρ c h0 h1 h2, W7_v3 m ρ c, W7_v6 m ρ c, W7_v29 m ρ c]
  rfl

theorem W8_v60 : W8 m ρ c (Proc.devRef .tc main_v60) = shapeCast S1x128 (m ((c : Thread nD τ).loc main_arg6)) shapeCasts_S128_S1x128 :=
  by
  simp only [W8, hostOps3]; after_results_simp
  rw [W7_arg6 m ρ c]
  rfl

theorem W8_arg2 : W8 m ρ c (Proc.devRef .tc main_arg2) = m ((c : Thread nD τ).loc main_arg2) :=
  (show W8 m ρ c (Proc.devRef .tc main_arg2) = W7 m ρ c (Proc.devRef .tc main_arg2) by simp only [W8, hostOps3]; after_results_simp).trans (W7_arg2 m ρ c)

theorem W8_arg7 : W8 m ρ c (Proc.devRef .tc main_arg7) = m ((c : Thread nD τ).loc main_arg7) :=
  (show W8 m ρ c (Proc.devRef .tc main_arg7) = W7 m ρ c (Proc.devRef .tc main_arg7) by simp only [W8, hostOps3]; after_results_simp).trans (W7_arg7 m ρ c)

theorem W8_arg8 : W8 m ρ c (Proc.devRef .tc main_arg8) = m ((c : Thread nD τ).loc main_arg8) :=
  (show W8 m ρ c (Proc.devRef .tc main_arg8) = W7 m ρ c (Proc.devRef .tc main_arg8) by simp only [W8, hostOps3]; after_results_simp).trans (W7_arg8 m ρ c)

/-! ## Region 3 leaves the second layer's output -/

theorem W9_v61 (h0 : R0) (h1 : R1) (h2 : R2) (h3 : R3) : W9 m ρ c (Proc.devRef .tc main_v61) = Cert.ReferenceIdeal.Spec.biasRelu (F := Ideal) (Cert.ReferenceIdeal.Spec.agg (F := Ideal) (Cert.ReferenceIdeal.Spec.dense (F := Ideal) (Cert.ReferenceIdeal.Spec.biasRelu (F := Ideal) (Cert.ReferenceIdeal.Spec.agg (F := Ideal) (Cert.ReferenceIdeal.Spec.dense (F := Ideal) (m ((c : Thread nD τ).loc main_arg0)) (m ((c : Thread nD τ).loc main_arg3))) (m ((c : Thread nD τ).loc main_arg1))) (m ((c : Thread nD τ).loc main_arg4))) (m ((c : Thread nD τ).loc main_arg5))) (m ((c : Thread nD τ).loc main_arg1))) (m ((c : Thread nD τ).loc main_arg6)) :=
  (W9_arr m ρ c 2).trans ((h3 (V8 m ρ) c (m ((c : Thread nD τ).loc main_arg6)) (W8_v60 m ρ c)).trans (congrArg (fun a => Cert.ReferenceIdeal.Spec.biasRelu (F := Ideal) a (m ((c : Thread nD τ).loc main_arg6))) (W8_v59 m ρ c h0 h1 h2)))

theorem W9_arg2 : W9 m ρ c (Proc.devRef .tc main_arg2) = m ((c : Thread nD τ).loc main_arg2) :=
  (W9_of_ne m ρ c main_arg2 (by decide)).trans (W8_arg2 m ρ c)

theorem W9_arg7 : W9 m ρ c (Proc.devRef .tc main_arg7) = m ((c : Thread nD τ).loc main_arg7) :=
  (W9_of_ne m ρ c main_arg7 (by decide)).trans (W8_arg7 m ρ c)

theorem W9_arg8 : W9 m ρ c (Proc.devRef .tc main_arg8) = m ((c : Thread nD τ).loc main_arg8) :=
  (W9_of_ne m ρ c main_arg8 (by decide)).trans (W8_arg8 m ρ c)

/-! ## The mean pool, on the host -/

theorem W10_v73 (h0 : R0) (h1 : R1) (h2 : R2) (h3 : R3) : W10 m ρ c (Proc.devRef .tc main_v73) = Cert.ReferenceIdeal.Spec.pool (F := Ideal) (Cert.ReferenceIdeal.Spec.biasRelu (F := Ideal) (Cert.ReferenceIdeal.Spec.agg (F := Ideal) (Cert.ReferenceIdeal.Spec.dense (F := Ideal) (Cert.ReferenceIdeal.Spec.biasRelu (F := Ideal) (Cert.ReferenceIdeal.Spec.agg (F := Ideal) (Cert.ReferenceIdeal.Spec.dense (F := Ideal) (m ((c : Thread nD τ).loc main_arg0)) (m ((c : Thread nD τ).loc main_arg3))) (m ((c : Thread nD τ).loc main_arg1))) (m ((c : Thread nD τ).loc main_arg4))) (m ((c : Thread nD τ).loc main_arg5))) (m ((c : Thread nD τ).loc main_arg1))) (m ((c : Thread nD τ).loc main_arg6))) (m ((c : Thread nD τ).loc main_arg2)) :=
  by
  simp only [W10, hostOps4]; after_results_simp
  rw [W9_v61 m ρ c h0 h1 h2 h3, W9_arg2 m ρ c]
  rfl

theorem W10_v74 : W10 m ρ c (Proc.devRef .tc main_v74) = shapeCast S1x16 (m ((c : Thread nD τ).loc main_arg8)) shapeCasts_S16_S1x16 :=
  by
  simp only [W10, hostOps4]; after_results_simp
  rw [W9_arg8 m ρ c]
  rfl

theorem W10_arg7 : W10 m ρ c (Proc.devRef .tc main_arg7) = m ((c : Thread nD τ).loc main_arg7) :=
  (show W10 m ρ c (Proc.devRef .tc main_arg7) = W9 m ρ c (Proc.devRef .tc main_arg7) by simp only [W10, hostOps4]; after_results_simp).trans (W9_arg7 m ρ c)

/-! ## Region 4 leaves the result: the whole network of the nine arguments -/

theorem W11_v75 (h0 : R0) (h1 : R1) (h2 : R2) (h3 : R3) (h4 : R4) : W11 m ρ c (Proc.devRef .tc main_v75) = Cert.ReferenceIdeal.Spec.out (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (W11_arr m ρ c 3).trans ((h4 (V10 m ρ) c (m ((c : Thread nD τ).loc main_arg8)) (W10_v74 m ρ c)).trans
    (congrArg₂ (fun p w => Cert.ReferenceIdeal.Spec.head (F := Ideal) p w (m ((c : Thread nD τ).loc main_arg8))) (W10_v73 m ρ c h0 h1 h2 h3) (W10_arg7 m ρ c)))

end AtIdeal

end Cert.KernelIdeal.Walk

end
-- ==== Proof.KernelValue.lean ====
/-
  The idealized kernel's run, read: every weakly fair execution ends with the result buffer holding the network
  `Spec.out` of the nine argument arrays as launched, and the arguments unchanged.

  The run with the result named as the last boundary's contents, the walk of that boundary back to the launch
  memory, and the five regions' values, put together.
-/
import proofs.«140677_j76209899700340_1_alg».proof.Proof.RunResult
import proofs.«140677_j76209899700340_1_alg».proof.Proof.Walk

noncomputable section

namespace Cert.KernelIdeal.KernelValue

open Idealize.ShloMosaic Idealize.ShloMosaic.TcCoe Idealize.SL.Sem
open Cert.KernelIdeal Cert.KernelIdeal.Gen

/-- Given the five regions' values, the program returns the network of its arguments. -/
theorem run (h0 : Walk.R0) (h1 : Walk.R1) (h2 : Walk.R2) (h3 : Walk.R3) (h4 : Walk.R4)
    (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v75) = Cert.ReferenceIdeal.Spec.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)) :=
  (θ_run defs _ _).mono (fun r h c => ⟨(h c).1.trans (Walk.W11_v75 m ρ c h0 h1 h2 h3 h4), (h c).2⟩)
    (RunResult.run_result (F := Ideal) m ρ)

end Cert.KernelIdeal.KernelValue

end
-- ==== Proof.RegionDense.lean ====
/-
  The two tiled dense products are the whole-array product.

  Each of the two regions multiplies a 100000 x 128 array of node features by a 128 x 128 weight matrix, 5000 rows
  at a time: 20 steps, step t reading rows 5000 t .. 5000 t + 4999 of the features and the whole weight matrix, and
  writing the same rows of the result. On exact values the narrowing casts in front of the product are the identity
  and the product into a zero accumulator is the plain sum over the 128 contraction positions, so entry (r, j) of
  step t's block is the sum over k of feature (5000 t + r, k) times weight (k, j). That is entry (5000 t + r, j) of
  the product of the whole arrays, and every row of the result lies in exactly the block of step r / 5000. Hence
  after the 20 write-backs the result array is the whole-array product of the two arrays as the region found them.
-/
import proofs.«140677_j76209899700340_1_alg».proof.Proof.Gen.KernelIdeal.Frame
import proofs.«140677_j76209899700340_1_alg».proof.Proof.Spec
import Idealize.ShloMosaic.PureOps.Ideal.Laws
import Idealize.ShloMosaic.Lib.Pipeline.Value
import Idealize.ShloMosaic.Lib.ValueIdx

set_option maxRecDepth 16384
noncomputable section
namespace Cert.KernelIdeal.RegionDense
open Idealize.ShloMosaic Idealize.ShloMosaic.TcCoe Idealize.SL.Sem
open Idealize.ShloMosaic.Pipeline (Dat)
open Cert.KernelIdeal Cert.KernelIdeal.Gen

/-! ## Indices

An entry of a product is named by a row and a column. The factor entries it is made of are named by the same row
with a contraction position k in the column's place, and by k with the same column. Each index below is built
coordinate by coordinate over the literal extents. -/

/-- The row of i in a 100000 x 128 array, at column k. -/
abbrev rowA (i : S100000x128.Idx) (k : Fin 128) : S100000x128.Idx := fun a => match a with
  | ⟨0, _⟩ => ⟨(i 0).val, (i 0).isLt⟩
  | ⟨1, _⟩ => ⟨k.val, k.isLt⟩

/-- Row k of the 128 x 128 weights, at the column of i. -/
abbrev colA (i : S100000x128.Idx) (k : Fin 128) : S128x128.Idx := fun a => match a with
  | ⟨0, _⟩ => ⟨k.val, k.isLt⟩
  | ⟨1, _⟩ => ⟨(i 1).val, (i 1).isLt⟩

/-- The row of y in a 5000 x 128 block, at column k. -/
abbrev rowB (y : S5000x128.Idx) (k : Fin 128) : S5000x128.Idx := fun a => match a with
  | ⟨0, _⟩ => ⟨(y 0).val, (y 0).isLt⟩
  | ⟨1, _⟩ => ⟨k.val, k.isLt⟩

/-- Row k of the 128 x 128 weights, at the column of the block index y. -/
abbrev colB (y : S5000x128.Idx) (k : Fin 128) : S128x128.Idx := fun a => match a with
  | ⟨0, _⟩ => ⟨k.val, k.isLt⟩
  | ⟨1, _⟩ => ⟨(y 1).val, (y 1).isLt⟩

/-! ## The whole-array product at an index -/

/-- The operand indices of the whole-array product at output index i and contraction position q: the left one is
    (row of i, q), the right one (q, column of i). -/
theorem denseL0 (i : S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin S100000x128.rank) ∈ Cert.ReferenceIdeal.dot_S100000x128_S128x128_S100000x128_1_0_0_1_n_n.lhsBatch by decide), dif_pos (show (0 : Fin S100000x128.rank) ∈ Cert.ReferenceIdeal.dot_S100000x128_S128x128_S100000x128_1_0_0_1_n_n.lhsNonContracting by decide)]
  rfl
theorem denseL1 (i : S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q
theorem denseR0 (i : S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q
theorem denseR1 (i : S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin S128x128.rank) ∈ Cert.ReferenceIdeal.dot_S100000x128_S128x128_S100000x128_1_0_0_1_n_n.rhsBatch by decide), dif_pos (show (1 : Fin S128x128.rank) ∈ Cert.ReferenceIdeal.dot_S100000x128_S128x128_S100000x128_1_0_0_1_n_n.rhsNonContracting by decide)]
  rfl

/-- Entry i of the whole-array product: the sum over the 128 contraction positions of the feature row's entry
    times the weight column's entry. -/
theorem dense_apply (X : (⟨S100000x128, .f32⟩ : BufTy).Contents (Elt Ideal)) (W : (⟨S128x128, .f32⟩ : BufTy).Contents (Elt Ideal)) (i : S100000x128.Idx) :
    Cert.ReferenceIdeal.Spec.dense (F := Ideal) X W i = ∑ k : Fin 128, X (rowA i k) * W (colA i k) := by
  unfold Cert.ReferenceIdeal.Spec.dense
  simp only [Host.dotGeneral]
  rw [Ideal.dotGeneral_apply, ← Equiv.sum_comp (ValueIdx.contrEquiv1 Cert.ReferenceIdeal.dot_S100000x128_S128x128_S100000x128_1_0_0_1_n_n 128 rfl rfl).symm]
  refine Finset.sum_congr rfl fun k _ => ?_
  have hk := ValueIdx.contrEquiv1_symm_val Cert.ReferenceIdeal.dot_S100000x128_S128x128_S100000x128_1_0_0_1_n_n 128 rfl rfl k
  have el : Cert.ReferenceIdeal.dot_S100000x128_S128x128_S100000x128_1_0_0_1_n_n.lhsIdx i ((ValueIdx.contrEquiv1 Cert.ReferenceIdeal.dot_S100000x128_S128x128_S100000x128_1_0_0_1_n_n 128 rfl rfl).symm k) = rowA i k := funext fun a => Fin.ext (by
    match a with
    | ⟨0, _⟩ => exact denseL0 _ _
    | ⟨1, _⟩ => exact (denseL1 _ _).trans hk)
  have er : Cert.ReferenceIdeal.dot_S100000x128_S128x128_S100000x128_1_0_0_1_n_n.rhsIdx i ((ValueIdx.contrEquiv1 Cert.ReferenceIdeal.dot_S100000x128_S128x128_S100000x128_1_0_0_1_n_n 128 rfl rfl).symm k) = colA i k := funext fun a => Fin.ext (by
    match a with
    | ⟨0, _⟩ => exact (denseR0 _ _).trans hk
    | ⟨1, _⟩ => exact denseR1 _ _)
  rw [el, er]

/-! ## One block's product at an index -/

/-- The same for a block's product. -/
theorem blockL0 (y : S5000x128.Idx) (q : dot_S5000x128_S128x128_S5000x128_1_0_0_1_n_n.contr.Idx) :
    (dot_S5000x128_S128x128_S5000x128_1_0_0_1_n_n.lhsIdx y q 0).val = (y 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem blockL1 (y : S5000x128.Idx) (q : dot_S5000x128_S128x128_S5000x128_1_0_0_1_n_n.contr.Idx) :
    (dot_S5000x128_S128x128_S5000x128_1_0_0_1_n_n.lhsIdx y q 1).val = (q ⟨0, by decide⟩).val :=
  dot_S5000x128_S128x128_S5000x128_1_0_0_1_n_n.lhsIdx_val_of_single rfl y q
theorem blockR0 (y : S5000x128.Idx) (q : dot_S5000x128_S128x128_S5000x128_1_0_0_1_n_n.contr.Idx) :
    (dot_S5000x128_S128x128_S5000x128_1_0_0_1_n_n.rhsIdx y q 0).val = (q ⟨0, by decide⟩).val :=
  dot_S5000x128_S128x128_S5000x128_1_0_0_1_n_n.rhsIdx_val_of_single rfl y q
theorem blockR1 (y : S5000x128.Idx) (q : dot_S5000x128_S128x128_S5000x128_1_0_0_1_n_n.contr.Idx) :
    (dot_S5000x128_S128x128_S5000x128_1_0_0_1_n_n.rhsIdx y q 1).val = (y 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry y of a block's product into the zero accumulator, the two narrowing casts being the identity on exact
    values: the same sum, over the block's row and the weights' column. -/
theorem blockDot_apply (x0 : Vec Ideal S5000x128 .f32) (x1 : Vec Ideal S128x128 .f32) (y : S5000x128.Idx) :
    matmul dot_S5000x128_S128x128_S5000x128_1_0_0_1_n_n none (truncf .bf16 x0 bitsLt_bf16_f32) (truncf .bf16 x1 bitsLt_bf16_f32) (constant (F := Ideal) S5000x128 .f32 0x00000000#32) y
      = ∑ k : Fin 128, x0 (rowB y k) * x1 (colB y k) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx y ((ValueIdx.contrEquiv1 dot_S5000x128_S128x128_S5000x128_1_0_0_1_n_n 128 rfl rfl).symm k) = rowB y k := funext fun a => Fin.ext (by
    match a with
    | ⟨0, _⟩ => exact blockL0 _ _
    | ⟨1, _⟩ => exact (blockL1 _ _).trans hk)
  have er : dot_S5000x128_S128x128_S5000x128_1_0_0_1_n_n.rhsIdx y ((ValueIdx.contrEquiv1 dot_S5000x128_S128x128_S5000x128_1_0_0_1_n_n 128 rfl rfl).symm k) = colB y k := funext fun a => Fin.ext (by
    match a with
    | ⟨0, _⟩ => exact (blockR0 _ _).trans hk
    | ⟨1, _⟩ => exact blockR1 _ _)
  rw [el, er]
  rfl

/-- Region 0's arithmetic on a block is that product. -/
theorem pay0_apply (x0 : Vec Ideal S5000x128 .f32) (x1 : Vec Ideal S128x128 .f32) (y : S5000x128.Idx) :
    k0_pay1 (F := Ideal) x0 x1 y = ∑ k : Fin 128, x0 (rowB y k) * x1 (colB y k) :=
  blockDot_apply x0 x1 y

/-- Region 2's is too: it only reshapes the feature block onto its own shape first, which changes nothing. -/
theorem pay2_apply (x0 : Vec Ideal S5000x128 .f32) (x1 : Vec Ideal S128x128 .f32) (y : S5000x128.Idx) :
    k2_pay1 (F := Ideal) x0 x1 y = ∑ k : Fin 128, x0 (rowB y k) * x1 (colB y k) := by
  unfold k2_pay1
  rw [shapeCast_self]
  exact blockDot_apply x0 x1 y

/-- The zero offsets of a whole-buffer access, however spelt. -/
theorem zero_off : (![0, 0] : Fin 2 → Nat) = fun _ => 0 := funext fun a => by fin_cases a <;> rfl

/-! ## Region 0: from the blocks to the array

The grid has 20 points. At point t the feature window holds rows 5000 t .. 5000 t + 4999 of its array, the weight
window the whole 128 x 128 array, and the output window is written back to the same rows of the result. -/

/-- The windows' index maps over the 20 points: the row block is the point's number, every other block index is 0. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole-array product of the arrays as the region found them: the
    entry in row y of the block is the entry in row 5000 t + y of the array, and the feature row it sums over is
    row y of the feature block, that is row 5000 t + y of the features; the weights are the same array throughout. -/
theorem flushed0_eq (V : (c : Dev nD) → (b : Ref sig .tc) → Buf (Elt Ideal) ((c : Thread nD τ).loc b)) (c : Dev nD) (t : Fin cfg0.N) :
    (dat0 (F := Ideal) V c).flushed 2 t
      = ((cfg0.win 2).blk t).view.read (Elt Ideal) (Cert.ReferenceIdeal.Spec.dense (F := Ideal) (V c main_arg0) (V c main_arg3)) := by
  show (cfg0.win 2).cut (grid0.coords t) ((dat0 (F := Ideal) V c).after 2 t) = _
  rw [after0_2]
  unfold out0_2
  rw [View.canon_unit_zero zero_off]
  simp only [View.ld_unit_zero (S := S5000x128) zero_off, View.ld_unit_zero (S := S128x128) zero_off]
  obtain ⟨e0, e1, e2, e3, e4, e5⟩ := idx0 t
  funext j
  refine (pay0_apply (iblk0 V c 0 t) (iblk0 V c 1 t) j).trans ?_
  refine Eq.trans ?_ (dense_apply (V c main_arg0) (V c main_arg3) (((cfg0.win 2).blk t).view.emb j)).symm
  refine Finset.sum_congr rfl fun k _ => ?_
  have hx : ((cfg0.win 0).blk t).view.emb (rowB j k) = rowA (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have hw : ((cfg0.win 1).blk t).view.emb (colB j k) = colA (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  have h0 : (iblk0 V c 0 t : Vec Ideal S5000x128 .f32) (rowB j k)
      = (V c main_arg0 : (⟨S100000x128, .f32⟩ : BufTy).Contents (Elt Ideal)) (rowA (((cfg0.win 2).blk t).view.emb j) k) := by
    show (V c main_arg0 : (⟨S100000x128, .f32⟩ : BufTy).Contents (Elt Ideal)) (((cfg0.win 0).blk t).view.emb (rowB j k)) = _
    rw [hx]
  have h1 : (iblk0 V c 1 t : Vec Ideal S128x128 .f32) (colB j k)
      = (V c main_arg3 : (⟨S128x128, .f32⟩ : BufTy).Contents (Elt Ideal)) (colA (((cfg0.win 2).blk t).view.emb j) k) := by
    show (V c main_arg3 : (⟨S128x128, .f32⟩ : BufTy).Contents (Elt Ideal)) (((cfg0.win 1).blk t).view.emb (colB j k)) = _
    rw [hw]
  rw [h0, h1]

/-- An index of the result array is in point t's block iff each coordinate is in the block's range on its axis. -/
theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- The 20 row blocks fill the result array: row r is in the block of point r / 5000. -/
theorem cover0 (i : S100000x128.Idx) :
    ∃ t : Fin cfg0.N, (cfg0.win 2).flush t = true ∧ i ∈ ((cfg0.win 2).blk t).view.set := by
  have hN : cfg0.N = 20 := N_0
  have hi0 : (i 0).val < 100000 := (i 0).isLt
  have hi1 : (i 1).val < 128 := (i 1).isLt
  obtain ⟨t, ht⟩ : ∃ t : Fin cfg0.N, t.val = (i 0).val / 5000 := ⟨⟨(i 0).val / 5000, by rw [hN]; omega⟩, rfl⟩
  obtain ⟨-, -, -, -, e4, e5⟩ := idx0 t
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After region 0's 20 steps the result array is the product of the features and the first weight matrix, whatever
    the buffers held when the region was entered. -/
theorem region0_value (V : (c : Dev nD) → (b : Ref sig .tc) → Buf (Elt Ideal) ((c : Thread nD τ).loc b)) (c : Dev nD) :
    (dat0 (F := Ideal) V c).arrAt 2 cfg0.N = Cert.ReferenceIdeal.Spec.dense (F := Ideal) (V c main_arg0) (V c main_arg3) :=
  (dat0 (F := Ideal) V c).arrAt_eq_of_cover 2 _ (fun t _ => flushed0_eq V c t) cover0

/-! ## Region 2: from the blocks to the array

The grid has 20 points. At point t the feature window holds rows 5000 t .. 5000 t + 4999 of its array, the weight
window the whole 128 x 128 array, and the output window is written back to the same rows of the result. -/

/-- The windows' index maps over the 20 points: the row block is the point's number, every other block index is 0. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the whole-array product of the arrays as the region found them: the
    entry in row y of the block is the entry in row 5000 t + y of the array, and the feature row it sums over is
    row y of the feature block, that is row 5000 t + y of the features; the weights are the same array throughout. -/
theorem flushed2_eq (V : (c : Dev nD) → (b : Ref sig .tc) → Buf (Elt Ideal) ((c : Thread nD τ).loc b)) (c : Dev nD) (t : Fin cfg2.N) :
    (dat2 (F := Ideal) V c).flushed 2 t
      = ((cfg2.win 2).blk t).view.read (Elt Ideal) (Cert.ReferenceIdeal.Spec.dense (F := Ideal) (V c main_v45) (V c main_arg5)) := by
  show (cfg2.win 2).cut (grid2.coords t) ((dat2 (F := Ideal) V c).after 2 t) = _
  rw [after2_2]
  unfold out2_2
  rw [View.canon_unit_zero zero_off]
  simp only [View.ld_unit_zero (S := S5000x128) zero_off, View.ld_unit_zero (S := S128x128) zero_off]
  obtain ⟨e0, e1, e2, e3, e4, e5⟩ := idx2 t
  funext j
  refine (pay2_apply (iblk2 V c 0 t) (iblk2 V c 1 t) j).trans ?_
  refine Eq.trans ?_ (dense_apply (V c main_v45) (V c main_arg5) (((cfg2.win 2).blk t).view.emb j)).symm
  refine Finset.sum_congr rfl fun k _ => ?_
  have hx : ((cfg2.win 0).blk t).view.emb (rowB j k) = rowA (((cfg2.win 2).blk t).view.emb j) k := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  have hw : ((cfg2.win 1).blk t).view.emb (colB j k) = colA (((cfg2.win 2).blk t).view.emb j) k := by
    funext a; apply Fin.ext
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega
  have h0 : (iblk2 V c 0 t : Vec Ideal S5000x128 .f32) (rowB j k)
      = (V c main_v45 : (⟨S100000x128, .f32⟩ : BufTy).Contents (Elt Ideal)) (rowA (((cfg2.win 2).blk t).view.emb j) k) := by
    show (V c main_v45 : (⟨S100000x128, .f32⟩ : BufTy).Contents (Elt Ideal)) (((cfg2.win 0).blk t).view.emb (rowB j k)) = _
    rw [hx]
  have h1 : (iblk2 V c 1 t : Vec Ideal S128x128 .f32) (colB j k)
      = (V c main_arg5 : (⟨S128x128, .f32⟩ : BufTy).Contents (Elt Ideal)) (colA (((cfg2.win 2).blk t).view.emb j) k) := by
    show (V c main_arg5 : (⟨S128x128, .f32⟩ : BufTy).Contents (Elt Ideal)) (((cfg2.win 1).blk t).view.emb (colB j k)) = _
    rw [hw]
  rw [h0, h1]

/-- An index of the result array is in point t's block iff each coordinate is in the block's range on its axis. -/
theorem mem_blk2 (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v46).slice (win2_2.rect t)).set ↔ _
  rw [View.set_slice_whole, Rect.mem_set_unit]
  exact Iff.rfl

/-- The 20 row blocks fill the result array: row r is in the block of point r / 5000. -/
theorem cover2 (i : S100000x128.Idx) :
    ∃ t : Fin cfg2.N, (cfg2.win 2).flush t = true ∧ i ∈ ((cfg2.win 2).blk t).view.set := by
  have hN : cfg2.N = 20 := N_2
  have hi0 : (i 0).val < 100000 := (i 0).isLt
  have hi1 : (i 1).val < 128 := (i 1).isLt
  obtain ⟨t, ht⟩ : ∃ t : Fin cfg2.N, t.val = (i 0).val / 5000 := ⟨⟨(i 0).val / 5000, by rw [hN]; omega⟩, rfl⟩
  obtain ⟨-, -, -, -, e4, e5⟩ := idx2 t
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- After region 2's 20 steps the result array is the product of the hidden features and the second weight matrix,
    whatever the buffers held when the region was entered. -/
theorem region2_value (V : (c : Dev nD) → (b : Ref sig .tc) → Buf (Elt Ideal) ((c : Thread nD τ).loc b)) (c : Dev nD) :
    (dat2 (F := Ideal) V c).arrAt 2 cfg2.N = Cert.ReferenceIdeal.Spec.dense (F := Ideal) (V c main_v45) (V c main_arg5) :=
  (dat2 (F := Ideal) V c).arrAt_eq_of_cover 2 _ (fun t _ => flushed2_eq V c t) cover2

end Cert.KernelIdeal.RegionDense
end
-- ==== Proof.RegionBias.lean ====
/-
  Bias and clamp, block by block, is bias and clamp of the whole array.

  Each of the two regions treated here walks over a [100000, 128] array in 20 blocks of 5000 consecutive rows.
  For every block it adds one bias row of 128 entries to each of the block's rows and replaces every negative
  sum by zero; the result is written to the same 5000 rows of the output array.  The bias row is the whole of a
  [1, 128] array, itself the one-row arrangement of a vector `b` of 128 entries.

  An entry (r, j) of the output therefore depends on exactly two numbers: entry (r, j) of the input array and
  entry j of `b`, and equals max(input(r, j) + b(j), 0).  The reference states the same thing for the whole
  array at once: it repeats `b` along the rows, adds, and takes the maximum with an array of zeros.  Reading
  both sides at one entry gives the same expression, and the 20 blocks tile the rows (row r lies in block
  r / 5000), so the array the region leaves behind is the reference's, whatever the array contents were when the
  region was entered.
-/
import proofs.«140677_j76209899700340_1_alg».proof.Proof.Gen.KernelIdeal.Frame
import proofs.«140677_j76209899700340_1_alg».proof.Proof.Spec
import Idealize.ShloMosaic.PureOps.Ideal.Laws
import Idealize.ShloMosaic.Lib.Pipeline.Value
import Idealize.ShloMosaic.Lib.ValueIdx

set_option maxRecDepth 16384
noncomputable section
namespace Cert.KernelIdeal.RegionBias
open Idealize.ShloMosaic Idealize.ShloMosaic.TcCoe Idealize.SL.Sem
open Idealize.ShloMosaic.Pipeline (Dat)
open Cert.KernelIdeal Cert.KernelIdeal.Gen
open Idealize.ShloMosaic.ValueIdx

/-- The two zero offsets of an access to a whole block, written as the constant function. -/
theorem zero_offsets : (![0, 0] : Fin 2 → Nat) = fun _ => 0 := funext fun a => by fin_cases a <;> rfl

/-- The reference's operation at entry `i = (r, j)`: the bias vector is first laid out as one row and that row is
    repeated down the rows, so what is added to `a (r, j)` is the bias entry with the column's number, `b j`; the
    array of zeros it is compared with reads the zero word everywhere. -/
theorem biasRelu_apply (a : (⟨S100000x128, .f32⟩ : BufTy).Contents (Elt Ideal)) (b : (⟨S128, .f32⟩ : BufTy).Contents (Elt Ideal))
    (i : S100000x128.Idx) (j : S128.Idx) (hj : (j 0).val = (i 1).val) :
    Cert.ReferenceIdeal.Spec.biasRelu (F := Ideal) a b i = max (a i + b j) (Ideal.ofBits .f32 0x00000000#32) := by
  unfold Cert.ReferenceIdeal.Spec.biasRelu
  rw [maximumf_apply, addf_apply]
  refine congrArg₂ max (congrArg₂ (· + ·) rfl ?_) rfl
  -- [128] → [1, 128] → [100000, 128]: entry (r, j) reads (0, j) of the row, which reads j of the vector
  refine (broadcastInDim_apply _ _ _ i (ix2 (0 : Fin 1) (⟨(i 1).val, idx2_lt1 i⟩ : Fin 128)) ?_).trans
    (broadcastInDim_apply _ _ _ _ j ?_)
  · intro a; match a with
    | ⟨0, _⟩ => rfl
    | ⟨1, _⟩ => rfl
  · intro a; match a with
    | ⟨0, _⟩ => exact hj

/-- The block computation at entry `y = (p, j)` of a block: the block's entry plus the bias row's entry in the same
    column (`k = (0, j)`: the row is repeated down the block's 5000 rows), clamped below at the zero word.  The two
    same-shape casts in it change nothing. -/
theorem payload_apply (x0 : Vec Ideal S5000x128 .f32) (x1 : Vec Ideal S1x128 .f32) (y : S5000x128.Idx) (k : S1x128.Idx)
    (hk0 : (k 0).val = 0) (hk1 : (k 1).val = (y 1).val) :
    k1_pay1 x0 x1 y = max (x0 y + x1 k) (Ideal.ofBits .f32 0x00000000#32) := by
  unfold k1_pay1
  simp only [shapeCast_self]
  rw [maximumf_apply, addf_apply]
  refine congrArg₂ max (congrArg₂ (· + ·) rfl ?_) rfl
  refine broadcastTo_apply x1 _ y k ?_
  intro a; match a with
  | ⟨0, _⟩ => exact hk0
  | ⟨1, _⟩ => exact hk1

/-- The second bias-and-clamp region computes the same function of its two blocks as the first. -/
theorem payload3_eq (x0 : Vec Ideal S5000x128 .f32) (x1 : Vec Ideal S1x128 .f32) : k3_pay1 x0 x1 = k1_pay1 x0 x1 := rfl

/-- One entry of a block against one entry of the whole array.  Let `x0` be a block of rows and `x1` a bias row, let
    entry `y` of the block be entry `i` of the array `a` (`h0`), let the bias row hold the vector `b` column by column
    (`h1`), and let `i` lie in `y`'s column (`hi`).  Then the block computation at `y` is the reference's operation of
    `a` and `b` at `i`: both are max(a(i) + b(column), 0). -/
theorem block_entry (a : (⟨S100000x128, .f32⟩ : BufTy).Contents (Elt Ideal)) (b : (⟨S128, .f32⟩ : BufTy).Contents (Elt Ideal))
    (x0 : Vec Ideal S5000x128 .f32) (x1 : Vec Ideal S1x128 .f32) (y : S5000x128.Idx) (i : S100000x128.Idx)
    (h0 : x0 y = a i) (h1 : ∀ (k : S1x128.Idx) (j : S128.Idx), (j 0).val = (k 1).val → x1 k = b j)
    (hi : (i 1).val = (y 1).val) :
    k1_pay1 x0 x1 y = Cert.ReferenceIdeal.Spec.biasRelu (F := Ideal) a b i := by
  have hy : (y 1).val < 128 := idx2_lt1 y
  rw [payload_apply x0 x1 y (ix2 (0 : Fin 1) (⟨(y 1).val, hy⟩ : Fin 128)) rfl rfl,
    biasRelu_apply a b i (ix1 (⟨(y 1).val, hy⟩ : Fin 128)) hi.symm, h0,
    h1 (ix2 (0 : Fin 1) (⟨(y 1).val, hy⟩ : Fin 128)) (ix1 (⟨(y 1).val, hy⟩ : Fin 128)) rfl]

/-! ## The first bias-and-clamp region -/

/-- Where the blocks sit at grid point `t`: the input block and the output block are the same rows of their arrays
    (block row number `t`, column block 0), and the bias window is always the whole [1, 128] array. -/
theorem index_facts1 : ∀ t : Fin cfg1.N,
    win1_0.index t (0 : Fin 2) = win1_2.index t (0 : Fin 2)
    ∧ win1_0.index t (1 : Fin 2) = 0
    ∧ win1_2.index t (1 : Fin 2) = 0
    ∧ win1_1.index t (0 : Fin 2) = 0
    ∧ win1_1.index t (1 : Fin 2) = 0
    ∧ win1_2.index t (0 : Fin 2) = t.val :=
  (by decide +kernel : ∀ t : Fin grid1.N, _)

/-- What grid point `t` writes back is block `t` of the reference's operation applied to the whole input array:
    entry (p, j) of the written block is computed from entry (p, j) of the input block, which is entry
    (5000 t + p, j) of the input array, the very entry of the array that the output block's (p, j) names; and from
    entry (0, j) of the bias array, which is `b j` because the bias array is `b` laid out as one row. -/
theorem flushed1_eq (V : (c : Dev nD) → (b : Ref sig .tc) → Buf (Elt Ideal) ((c : Thread nD τ).loc b)) (c : Dev nD)
    (b : (⟨Cert.ReferenceIdeal.S128, .f32⟩ : BufTy).Contents (Elt Ideal)) (hb : V c main_v44 = shapeCast S1x128 b shapeCasts_S128_S1x128)
    (t : Fin cfg1.N) :
    (dat1 (F := Ideal) V c).flushed 2 t
      = ((cfg1.win 2).blk t).view.read (Elt Ideal) (Cert.ReferenceIdeal.Spec.biasRelu (F := Ideal) (V c main_v43) b) := by
  show (cfg1.win 2).cut (grid1.coords t) ((dat1 (F := Ideal) V c).after 2 t) = _
  rw [after1_2]
  unfold out1_2
  rw [View.canon_unit_zero zero_offsets]
  simp only [View.ld_unit_zero (S := S5000x128) zero_offsets, View.ld_unit_zero (S := S1x128) zero_offsets]
  obtain ⟨e0, e1, e2, e3, e4, e5⟩ := index_facts1 t
  funext y
  show k1_pay1 (iblk1 V c 0 t) (iblk1 V c 1 t) y
    = Cert.ReferenceIdeal.Spec.biasRelu (F := Ideal) (V c main_v43) b (((cfg1.win 2).blk t).view.emb y)
  refine block_entry (V c main_v43) b (iblk1 V c 0 t) (iblk1 V c 1 t) y _ ?_ ?_ ?_
  · -- the input block's entry and the output block's entry name the same entry of their arrays
    show V c main_v43 (((cfg1.win 0).blk t).view.emb y) = V c main_v43 (((cfg1.win 2).blk t).view.emb y)
    refine congrArg (V c main_v43) (funext fun a => Fin.ext ?_)
    match a with
    | ⟨0, _⟩ => show win1_0.index t (0 : Fin 2) * 5000 + 1 * (y 0).val = win1_2.index t (0 : Fin 2) * 5000 + 1 * (y 0).val; omega
    | ⟨1, _⟩ => show win1_0.index t (1 : Fin 2) * 128 + 1 * (y 1).val = win1_2.index t (1 : Fin 2) * 128 + 1 * (y 1).val; omega
  · -- the bias block is the [1, 128] array, whose entry (0, j) is at row-major position j, where the vector holds b j
    intro k j hkj
    show V c main_v44 (((cfg1.win 1).blk t).view.emb k) = b j
    rw [hb]
    refine shapeCast_apply b _ _ j ?_
    rw [Shape.rowMajor_val_one, Shape.rowMajor_val_two]
    have hk0 : (k 0).val < 1 := idx2_lt0 k
    show (j 0).val = (win1_1.index t (0 : Fin 2) * 1 + 1 * (k 0).val) * 128 + (win1_1.index t (1 : Fin 2) * 128 + 1 * (k 1).val)
    omega
  · -- the output block spans all 128 columns, so an entry keeps its column
    show win1_2.index t (1 : Fin 2) * 128 + 1 * (y 1).val = (y 1).val
    omega

/-- An entry of the output array lies in point `t`'s block exactly when, on each axis, its coordinate is within the
    block's extent counted from the block's first coordinate. -/
theorem mem_block1 (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v45).slice (win1_2.rect t)).set ↔ _
  rw [View.set_slice_whole, Rect.mem_set_unit]
  exact Iff.rfl

/-- The 20 blocks of 5000 rows tile the 100000 rows: entry (r, j) is in the block of point r / 5000, which writes back. -/
theorem cover1 (i : S100000x128.Idx) :
    ∃ t : Fin cfg1.N, (cfg1.win 2).flush t = true ∧ i ∈ ((cfg1.win 2).blk t).view.set := by
  have hi0 : (i 0).val < 100000 := idx2_lt0 i
  have hi1 : (i 1).val < 128 := idx2_lt1 i
  have hN : grid1.N = 20 := N_1
  have ht : (i 0).val / 5000 < cfg1.N := by show _ < grid1.N; rw [hN]; omega
  obtain ⟨e0, e1, e2, e3, e4, e5⟩ := index_facts1 ⟨(i 0).val / 5000, ht⟩
  have e5' : win1_2.index ⟨(i 0).val / 5000, ht⟩ (0 : Fin 2) = (i 0).val / 5000 := e5
  refine ⟨⟨(i 0).val / 5000, ht⟩, flush1_2 _, ?_⟩
  rw [mem_block1]
  intro a
  match a with
  | ⟨0, _⟩ =>
    show win1_2.index ⟨(i 0).val / 5000, ht⟩ (0 : Fin 2) * 5000 ≤ (i 0).val
      ∧ (i 0).val < win1_2.index ⟨(i 0).val / 5000, ht⟩ (0 : Fin 2) * 5000 + 5000
    omega
  | ⟨1, _⟩ =>
    show win1_2.index ⟨(i 0).val / 5000, ht⟩ (1 : Fin 2) * 128 ≤ (i 1).val
      ∧ (i 1).val < win1_2.index ⟨(i 0).val / 5000, ht⟩ (1 : Fin 2) * 128 + 128
    omega

/-- After the region has run from any entry contents `V` whose bias array is `b` as one row, the output array is the
    reference's bias-and-clamp of the input array as the region found it: every written block is a block of that one
    array, and the blocks cover it. -/
theorem region1_value (V : (c : Dev nD) → (b : Ref sig .tc) → Buf (Elt Ideal) ((c : Thread nD τ).loc b)) (c : Dev nD)
    (b : (⟨Cert.ReferenceIdeal.S128, .f32⟩ : BufTy).Contents (Elt Ideal)) (hb : V c main_v44 = shapeCast S1x128 b shapeCasts_S128_S1x128) :
    (dat1 (F := Ideal) V c).arrAt 2 cfg1.N = Cert.ReferenceIdeal.Spec.biasRelu (F := Ideal) (V c main_v43) b :=
  (dat1 (F := Ideal) V c).arrAt_eq_of_cover 2 (Cert.ReferenceIdeal.Spec.biasRelu (F := Ideal) (V c main_v43) b)
    (fun t _ => flushed1_eq V c b hb t) cover1

/-! ## The second bias-and-clamp region -/

/-- Where the blocks sit at grid point `t`: the input block and the output block are the same rows of their arrays
    (block row number `t`, column block 0), and the bias window is always the whole [1, 128] array. -/
theorem index_facts3 : ∀ t : Fin cfg3.N,
    win3_0.index t (0 : Fin 2) = win3_2.index t (0 : Fin 2)
    ∧ win3_0.index t (1 : Fin 2) = 0
    ∧ win3_2.index t (1 : Fin 2) = 0
    ∧ win3_1.index t (0 : Fin 2) = 0
    ∧ win3_1.index t (1 : Fin 2) = 0
    ∧ win3_2.index t (0 : Fin 2) = t.val :=
  (by decide +kernel : ∀ t : Fin grid3.N, _)

/-- What grid point `t` writes back is block `t` of the reference's operation applied to the whole input array:
    entry (p, j) of the written block is computed from entry (p, j) of the input block, which is entry
    (5000 t + p, j) of the input array, the very entry of the array that the output block's (p, j) names; and from
    entry (0, j) of the bias array, which is `b j` because the bias array is `b` laid out as one row. -/
theorem flushed3_eq (V : (c : Dev nD) → (b : Ref sig .tc) → Buf (Elt Ideal) ((c : Thread nD τ).loc b)) (c : Dev nD)
    (b : (⟨Cert.ReferenceIdeal.S128, .f32⟩ : BufTy).Contents (Elt Ideal)) (hb : V c main_v60 = shapeCast S1x128 b shapeCasts_S128_S1x128)
    (t : Fin cfg3.N) :
    (dat3 (F := Ideal) V c).flushed 2 t
      = ((cfg3.win 2).blk t).view.read (Elt Ideal) (Cert.ReferenceIdeal.Spec.biasRelu (F := Ideal) (V c main_v59) b) := by
  show (cfg3.win 2).cut (grid3.coords t) ((dat3 (F := Ideal) V c).after 2 t) = _
  rw [after3_2]
  unfold out3_2
  rw [View.canon_unit_zero zero_offsets]
  simp only [View.ld_unit_zero (S := S5000x128) zero_offsets, View.ld_unit_zero (S := S1x128) zero_offsets]
  obtain ⟨e0, e1, e2, e3, e4, e5⟩ := index_facts3 t
  funext y
  show k3_pay1 (iblk3 V c 0 t) (iblk3 V c 1 t) y
    = Cert.ReferenceIdeal.Spec.biasRelu (F := Ideal) (V c main_v59) b (((cfg3.win 2).blk t).view.emb y)
  refine (congrFun (payload3_eq (iblk3 V c 0 t) (iblk3 V c 1 t)) y).trans ?_
  refine block_entry (V c main_v59) b (iblk3 V c 0 t) (iblk3 V c 1 t) y _ ?_ ?_ ?_
  · -- the input block's entry and the output block's entry name the same entry of their arrays
    show V c main_v59 (((cfg3.win 0).blk t).view.emb y) = V c main_v59 (((cfg3.win 2).blk t).view.emb y)
    refine congrArg (V c main_v59) (funext fun a => Fin.ext ?_)
    match a with
    | ⟨0, _⟩ => show win3_0.index t (0 : Fin 2) * 5000 + 1 * (y 0).val = win3_2.index t (0 : Fin 2) * 5000 + 1 * (y 0).val; omega
    | ⟨1, _⟩ => show win3_0.index t (1 : Fin 2) * 128 + 1 * (y 1).val = win3_2.index t (1 : Fin 2) * 128 + 1 * (y 1).val; omega
  · -- the bias block is the [1, 128] array, whose entry (0, j) is at row-major position j, where the vector holds b j
    intro k j hkj
    show V c main_v60 (((cfg3.win 1).blk t).view.emb k) = b j
    rw [hb]
    refine shapeCast_apply b _ _ j ?_
    rw [Shape.rowMajor_val_one, Shape.rowMajor_val_two]
    have hk0 : (k 0).val < 1 := idx2_lt0 k
    show (j 0).val = (win3_1.index t (0 : Fin 2) * 1 + 1 * (k 0).val) * 128 + (win3_1.index t (1 : Fin 2) * 128 + 1 * (k 1).val)
    omega
  · -- the output block spans all 128 columns, so an entry keeps its column
    show win3_2.index t (1 : Fin 2) * 128 + 1 * (y 1).val = (y 1).val
    omega

/-- An entry of the output array lies in point `t`'s block exactly when, on each axis, its coordinate is within the
    block's extent counted from the block's first coordinate. -/
theorem mem_block3 (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v61).slice (win3_2.rect t)).set ↔ _
  rw [View.set_slice_whole, Rect.mem_set_unit]
  exact Iff.rfl

/-- The 20 blocks of 5000 rows tile the 100000 rows: entry (r, j) is in the block of point r / 5000, which writes back. -/
theorem cover3 (i : S100000x128.Idx) :
    ∃ t : Fin cfg3.N, (cfg3.win 2).flush t = true ∧ i ∈ ((cfg3.win 2).blk t).view.set := by
  have hi0 : (i 0).val < 100000 := idx2_lt0 i
  have hi1 : (i 1).val < 128 := idx2_lt1 i
  have hN : grid3.N = 20 := N_3
  have ht : (i 0).val / 5000 < cfg3.N := by show _ < grid3.N; rw [hN]; omega
  obtain ⟨e0, e1, e2, e3, e4, e5⟩ := index_facts3 ⟨(i 0).val / 5000, ht⟩
  have e5' : win3_2.index ⟨(i 0).val / 5000, ht⟩ (0 : Fin 2) = (i 0).val / 5000 := e5
  refine ⟨⟨(i 0).val / 5000, ht⟩, flush3_2 _, ?_⟩
  rw [mem_block3]
  intro a
  match a with
  | ⟨0, _⟩ =>
    show win3_2.index ⟨(i 0).val / 5000, ht⟩ (0 : Fin 2) * 5000 ≤ (i 0).val
      ∧ (i 0).val < win3_2.index ⟨(i 0).val / 5000, ht⟩ (0 : Fin 2) * 5000 + 5000
    omega
  | ⟨1, _⟩ =>
    show win3_2.index ⟨(i 0).val / 5000, ht⟩ (1 : Fin 2) * 128 ≤ (i 1).val
      ∧ (i 1).val < win3_2.index ⟨(i 0).val / 5000, ht⟩ (1 : Fin 2) * 128 + 128
    omega

/-- After the region has run from any entry contents `V` whose bias array is `b` as one row, the output array is the
    reference's bias-and-clamp of the input array as the region found it: every written block is a block of that one
    array, and the blocks cover it. -/
theorem region3_value (V : (c : Dev nD) → (b : Ref sig .tc) → Buf (Elt Ideal) ((c : Thread nD τ).loc b)) (c : Dev nD)
    (b : (⟨Cert.ReferenceIdeal.S128, .f32⟩ : BufTy).Contents (Elt Ideal)) (hb : V c main_v60 = shapeCast S1x128 b shapeCasts_S128_S1x128) :
    (dat3 (F := Ideal) V c).arrAt 2 cfg3.N = Cert.ReferenceIdeal.Spec.biasRelu (F := Ideal) (V c main_v59) b :=
  (dat3 (F := Ideal) V c).arrAt_eq_of_cover 2 (Cert.ReferenceIdeal.Spec.biasRelu (F := Ideal) (V c main_v59) b)
    (fun t _ => flushed3_eq V c b hb t) cover3

end Cert.KernelIdeal.RegionBias

end
-- ==== Proof.RegionHead.lean ====
import proofs.«140677_j76209899700340_1_alg».proof.Proof.Gen.KernelIdeal.Frame
import proofs.«140677_j76209899700340_1_alg».proof.Proof.Spec
import Idealize.ShloMosaic.PureOps.Ideal.Laws
import Idealize.ShloMosaic.Lib.Pipeline.Value
import Idealize.ShloMosaic.Lib.ValueIdx
import Idealize.ShloMosaic.Lib.ValueLayout

set_option maxRecDepth 16384
noncomputable section
namespace Cert.KernelIdeal.RegionHead
open Idealize.ShloMosaic Idealize.ShloMosaic.TcCoe Idealize.SL.Sem
open Idealize.ShloMosaic.Pipeline (Dat)
open Cert.KernelIdeal Cert.KernelIdeal.Gen

open Idealize.ShloMosaic.ValueIdx

/-! # The classifier head: one block, pooled rows times the class weights, plus the bias row

The region's grid has a single point and each of its four windows is its whole array, so the one block the body
sees of every operand is the operand itself and the one block it writes back is the whole result.  What is left is
the arithmetic: entry (r, j) of the body's result is the sum over k of p(r, k) * wc(k, j), plus b(j), and so is
entry (r, j) of the reference's product with the bias row broadcast down the 128 rows. -/

/-! ## The arithmetic, over arbitrary operands -/

/-- The two programs contract with the same dimension numbers: rows of the left operand against columns of the
    right one, over the one shared axis of extent 128. -/
theorem dims_eq : Cert.KernelIdeal.dot_S128x128_S128x16_S128x16_1_0_0_1_n_n
    = Cert.ReferenceIdeal.dot_S128x128_S128x16_S128x16_1_0_0_1_n_n := rfl

/-- The body's bias term at (r, j): the vector b laid out as one row of 16, that row repeated on each of the 128
    rows; so entry j of b, whatever the row. -/
theorem bias_block (b : (⟨Cert.ReferenceIdeal.S16, .f32⟩ : BufTy).Contents (Elt Ideal)) (r : Fin 128) (j : Fin 16) :
    broadcastTo S128x16 (shapeCast S1x16 (shapeCast S1x16 b shapeCasts_S16_S1x16) shapeCasts_S1x16_S1x16)
        broadcasts_S1x16_S128x16 (ix2 r j) = b (ix1 j) := by
  rw [shapeCast_self, broadcastTo_1b_ab_apply, shapeCast_a_1a_apply]

/-- The reference's bias term at (r, j): b placed along the second axis of a 1 x 16 array, then that array's two
    axes placed on the result's two, the unit axis stretched; again entry j of b. -/
theorem bias_reference (b : (⟨Cert.ReferenceIdeal.S16, .f32⟩ : BufTy).Contents (Elt Ideal)) (r : Fin 128) (j : Fin 16) :
    broadcastInDim Cert.ReferenceIdeal.S128x16 ![0, 1] Cert.ReferenceIdeal.Gen.bcast_S1x16_S128x16_0_1
        (broadcastInDim Cert.ReferenceIdeal.S1x16 ![1] Cert.ReferenceIdeal.Gen.bcast_S16_S1x16_1 b) (ix2 r j)
      = b (ix1 j) := by
  rw [broadcastInDim_apply _ _ _ (ix2 r j) (ix2 (0 : Fin 1) j) (fun a => by match a with | ⟨0, _⟩ => rfl | ⟨1, _⟩ => rfl),
    broadcastInDim_apply _ _ _ (ix2 (0 : Fin 1) j) (ix1 j) (fun a => by match a with | ⟨0, _⟩ => rfl)]

/-- The body's result on operands p, wc and the bias as a 1 x 16 row is the reference's head of p, wc and b.
    Entry by entry: the change of format before the product is the identity on extended reals, the product
    accumulated from zero is the plain sum over the contracted axis, the same sum the reference's contraction
    is, and the two bias terms are both entry j of b. -/
theorem payload_eq_head (p : Vec Ideal S128x128 .f32) (wc : Vec Ideal S128x16 .f32)
    (b : (⟨Cert.ReferenceIdeal.S16, .f32⟩ : BufTy).Contents (Elt Ideal)) :
    k4_pay1 p wc (shapeCast S1x16 b shapeCasts_S16_S1x16) = Cert.ReferenceIdeal.Spec.head (F := Ideal) p wc b := by
  funext i
  obtain ⟨r, j, rfl⟩ : ∃ (r : Fin 128) (j : Fin 16), i = ix2 r j := ⟨i 0, i 1, eq_ix2 i⟩
  unfold k4_pay1 Cert.ReferenceIdeal.Spec.head
  rw [addf_apply, addf_apply, bias_block, bias_reference]
  congr 1
  simp only [matmul, Host.dotGeneral]
  rw [Ideal.matmul_constant_zero_apply, Ideal.dotGeneral_apply, dims_eq]
  refine Finset.sum_congr rfl fun k _ => ?_
  rw [truncf_apply, truncf_apply, shapeCast_self]

/-! ## The one block of each window is the window's whole array -/

theorem zero_offsets : (![0, 0] : Fin 2 → Nat) = fun _ => 0 := funext fun a => by fin_cases a <;> rfl

/-- Every window's block index is (0, 0) at the grid's one point. -/
theorem index_zero : ∀ t : Fin cfg4.N, (∀ a : Fin 2, win4_0.index t a = 0) ∧ (∀ a : Fin 2, win4_1.index t a = 0)
    ∧ (∀ a : Fin 2, win4_2.index t a = 0) ∧ (∀ a : Fin 2, win4_3.index t a = 0) :=
  (by decide +kernel : ∀ t : Fin grid4.N, _)

section
variable (V : (c : Dev nD) → (b : Ref sig .tc) → Buf (Elt Ideal) ((c : Thread nD τ).loc b)) (c : Dev nD)

/-- The block of the pooled rows is all 128 x 128 of them: it starts at offset (0, 0) and has the array's extents. -/
theorem pooled_block (t : Fin cfg4.N) : iblk4 (F := Ideal) V c 0 t = V c main_v73 := by
  have h : (fun a => win4_0.index t a * main_v73.ty.shape.size a) = fun _ => 0 :=
    funext fun a => by rw [(index_zero t).1 a, Nat.zero_mul]
  exact Memref.read_access_unit_zero (Elt Ideal) main_v73 h _ (V c main_v73)

/-- The block of the class weights is all 128 x 16 of them. -/
theorem weights_block (t : Fin cfg4.N) : iblk4 (F := Ideal) V c 1 t = V c main_arg7 := by
  have h : (fun a => win4_1.index t a * main_arg7.ty.shape.size a) = fun _ => 0 :=
    funext fun a => by rw [(index_zero t).2.1 a, Nat.zero_mul]
  exact Memref.read_access_unit_zero (Elt Ideal) main_arg7 h _ (V c main_arg7)

/-- The block of the bias row is the whole 1 x 16 row. -/
theorem bias_row_block (t : Fin cfg4.N) : iblk4 (F := Ideal) V c 2 t = V c main_v74 := by
  have h : (fun a => win4_2.index t a * main_v74.ty.shape.size a) = fun _ => 0 :=
    funext fun a => by rw [(index_zero t).2.2.1 a, Nat.zero_mul]
  exact Memref.read_access_unit_zero (Elt Ideal) main_v74 h _ (V c main_v74)

/-- Any contents of the 128 x 16 result, read through the output's one block, are those contents. -/
theorem result_block (t : Fin cfg4.N) (X : (⟨S128x16, .f32⟩ : BufTy).Contents (Elt Ideal)) :
    ((cfg4.win 3).blk t).view.read (Elt Ideal) X = X := by
  have h : (fun a => win4_3.index t a * main_v75.ty.shape.size a) = fun _ => 0 :=
    funext fun a => by rw [(index_zero t).2.2.2 a, Nat.zero_mul]
  exact Memref.read_access_unit_zero (Elt Ideal) main_v75 h _ X

/-! ## What the point writes back, and the array after the region -/

/-- What the grid's point writes back is the one block of the reference's head of the operands as the region
    found them: the body's single store fills the whole staging buffer with its payload, the payload's operands
    are the three whole arrays, and the bias array is b as a row. -/
theorem flushed_eq (b : (⟨Cert.ReferenceIdeal.S16, .f32⟩ : BufTy).Contents (Elt Ideal))
    (hb : V c main_v74 = shapeCast S1x16 b shapeCasts_S16_S1x16) (t : Fin cfg4.N) :
    (dat4 (F := Ideal) V c).flushed 3 t
      = ((cfg4.win 3).blk t).view.read (Elt Ideal) (Cert.ReferenceIdeal.Spec.head (F := Ideal) (V c main_v73) (V c main_arg7) b) := by
  show (cfg4.win 3).cut (grid4.coords t) ((dat4 V c).after 3 t) = _
  rw [after4_3]
  unfold out4_3
  rw [View.canon_unit_zero zero_offsets]
  simp only [View.ld_unit_zero (S := S128x128) zero_offsets, View.ld_unit_zero (S := S128x16) zero_offsets,
    View.ld_unit_zero (S := S1x16) zero_offsets]
  rw [pooled_block, weights_block, bias_row_block, hb, payload_eq_head]
  exact (result_block t _).symm

/-- An index of the result is in the point's block iff each coordinate is within the block's range on its axis. -/
theorem mem_block (t : Fin cfg4.N) (i : S128x16.Idx) :
    i ∈ ((cfg4.win 3).blk t).view.set
      ↔ ∀ a : Fin 2, win4_3.index t a * S128x16.size a ≤ (i a).val ∧ (i a).val < win4_3.index t a * S128x16.size a + S128x16.size a := by
  show i ∈ ((View.whole main_v75).slice (win4_3.rect t)).set ↔ _
  rw [View.set_slice_whole, Rect.mem_set_unit]
  exact Iff.rfl

/-- The one block covers the result: it starts at (0, 0) and is 128 x 16. -/
theorem covered (i : S128x16.Idx) : ∃ t : Fin cfg4.N, (cfg4.win 3).flush t = true ∧ i ∈ ((cfg4.win 3).blk t).view.set := by
  refine ⟨t4_0, flush4_3 t4_0, ?_⟩
  rw [mem_block]
  intro a
  have z := (index_zero t4_0).2.2.2
  match a with
  | ⟨0, _⟩ =>
    show win4_3.index t4_0 (0 : Fin 2) * 128 ≤ (i 0).val ∧ (i 0).val < win4_3.index t4_0 (0 : Fin 2) * 128 + 128
    have h : (i 0).val < 128 := (i 0).isLt
    rw [z 0]; omega
  | ⟨1, _⟩ =>
    show win4_3.index t4_0 (1 : Fin 2) * 16 ≤ (i 1).val ∧ (i 1).val < win4_3.index t4_0 (1 : Fin 2) * 16 + 16
    have h : (i 1).val < 16 := (i 1).isLt
    rw [z 1]; omega

end

/-- After the region the result array is the reference's head of the pooled rows, the class weights and the bias
    vector as the region found them. -/
theorem region4_value (V : (c : Dev nD) → (b : Ref sig .tc) → Buf (Elt Ideal) ((c : Thread nD τ).loc b)) (c : Dev nD)
    (b : (⟨Cert.ReferenceIdeal.S16, .f32⟩ : BufTy).Contents (Elt Ideal)) (hb : V c main_v74 = shapeCast S1x16 b shapeCasts_S16_S1x16) :
    (dat4 (F := Ideal) V c).arrAt 3 cfg4.N = Cert.ReferenceIdeal.Spec.head (F := Ideal) (V c main_v73) (V c main_arg7) b :=
  (dat4 (F := Ideal) V c).arrAt_eq_of_cover 3 (Cert.ReferenceIdeal.Spec.head (F := Ideal) (V c main_v73) (V c main_arg7) b)
    (fun t _ => flushed_eq V c b hb t) covered

end Cert.KernelIdeal.RegionHead
end
-- ==== Proof.lean ====
/-
  The certificate: the Pallas kernel of a two-layer graph convolution (dense products, bias and clamp, and the
  classifier head as five pipelined regions; gathers, scatter-adds and the mean pool on the host) against its
  jnp reference, at the ideal instance, where floats are extended reals and operations exact.

  Both programs apply the SAME host operations around their dense pieces, so the whole comparison reduces to
  five facts, one per region: a dense product tiled in row blocks is the whole product (a sum over the 128
  contracted entries, whatever the tiling, the bf16 casts being the identity on extended reals); a bias row
  added to row blocks and clamped at zero is the whole-array add and clamp; the head in one block is the product
  plus the bias row.  With those, the kernel's result buffer, walked back through the eleven segment boundaries,
  is the network `Spec.out` of the nine arguments, and the reference's result is the same `Spec.out` by unfolding
  names.  No law used needs finiteness: the precondition is never opened.

  The frames of the two kernels are generated whole; the reference's frame is its run with the result dropped.
  The ideal pass rewrote nothing, so `preserves` is trivial.
-/
import proofs.«140677_j76209899700340_1_alg».proof.Defs
import proofs.«140677_j76209899700340_1_alg».proof.Proof.Gen.Kernel
import proofs.«140677_j76209899700340_1_alg».proof.Proof.Gen.Kernel.Skeleton
import proofs.«140677_j76209899700340_1_alg».proof.Proof.Gen.Kernel.Launch
import proofs.«140677_j76209899700340_1_alg».proof.Proof.Gen.Kernel.Points
import proofs.«140677_j76209899700340_1_alg».proof.Proof.Gen.Kernel.Frame
import proofs.«140677_j76209899700340_1_alg».proof.Proof.Gen.KernelIdeal
import proofs.«140677_j76209899700340_1_alg».proof.Proof.Gen.KernelIdeal.Skeleton
import proofs.«140677_j76209899700340_1_alg».proof.Proof.Gen.KernelIdeal.Launch
import proofs.«140677_j76209899700340_1_alg».proof.Proof.Gen.KernelIdeal.Points
import proofs.«140677_j76209899700340_1_alg».proof.Proof.Gen.KernelIdeal.Frame
import proofs.«140677_j76209899700340_1_alg».proof.Proof.Gen.ReferenceIdeal
import proofs.«140677_j76209899700340_1_alg».proof.Proof.Gen.Pre_finite_inputs
import proofs.«140677_j76209899700340_1_alg».proof.Proof.RefValue
import proofs.«140677_j76209899700340_1_alg».proof.Proof.KernelValue
import proofs.«140677_j76209899700340_1_alg».proof.Proof.RegionDense
import proofs.«140677_j76209899700340_1_alg».proof.Proof.RegionBias
import proofs.«140677_j76209899700340_1_alg».proof.Proof.RegionHead
import Idealize.ShloMosaic.Adequacy
import Idealize.ShloMosaic.Init

noncomputable section

namespace Cert.Proof

open Idealize.ShloMosaic Idealize.SL.Sem

theorem region0 : Cert.KernelIdeal.Walk.R0 := fun V c => Cert.KernelIdeal.RegionDense.region0_value V c
theorem region1 : Cert.KernelIdeal.Walk.R1 := fun V c b hb => Cert.KernelIdeal.RegionBias.region1_value V c b hb
theorem region2 : Cert.KernelIdeal.Walk.R2 := fun V c => Cert.KernelIdeal.RegionDense.region2_value V c
theorem region3 : Cert.KernelIdeal.Walk.R3 := fun V c b hb => Cert.KernelIdeal.RegionBias.region3_value V c b hb
theorem region4 : Cert.KernelIdeal.Walk.R4 := fun V c b hb => Cert.KernelIdeal.RegionHead.region4_value V c b hb

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both runs end with the result at `Spec.out` of their own arguments, and the arguments agree. -/
theorem algebraic : Cert.algebraic_KernelIdeal_ReferenceIdeal := by
  intro m ρ m' ρ' _ hagree
  refine ⟨fun c => Cert.ReferenceIdeal.Spec.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.KernelValue.run region0 region1 region2 region3 region4 m ρ, ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5, e6, e7, e8⟩ := hagree c
  rw [Cert.ReferenceIdeal.RefValue.res_eq, e0, e1, e2, e3, e4, e5, e6, e7, e8]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
